-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x2048x512 : Shape := ⟨3, ![64, 2048, 512]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S64x2048x512 : S_.BroadcastsInDim S64x2048x512 (![] : Fin 0 → Fin S64x2048x512.rank)
  reducesTo_S64x2048x512_S_d0_1_2 : S64x2048x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S512x1 .f32) (main_arg8 : FVec F S1 .f32) (main_v33 : IVec S_ 1) : IVec S_ 1 :=
  let main_v34 : FVec F S512x1 .f32 := Host.absf main_arg7
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S512x1 .f32) (main_arg8 : FVec F S1 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S64x512 .f32) (main_arg1 : FVec F S64x512 .f32) (main_arg2 : FVec F S64x2048x512 .f32) (main_arg3 : FVec F S1024x512 .f32) (main_arg4 : FVec F S512 .f32) (main_arg5 : FVec F S512x512 .f32) (main_arg6 : FVec F S512 .f32) (main_arg7 : FVec F S512x1 .f32) (main_arg8 : FVec F S1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64x2048x512 .f32 := Host.absf main_arg2
  let main_cst_2 : FVec F S_ .f32 := constant S_ .f32 0x7F800000#32
  let main_v10 : FVec F S64x2048x512 .f32 := broadcastInDim S64x2048x512 ![] bcast_S_S64x2048x512 main_cst_2
  let main_v11 : IVec S64x2048x512 1 := cmpf .olt main_v9 main_v10
  let main_c_3 : IVec S_ 1 := constantI S_ 1 1#1
  let main_v12 : IVec S_ 1 := (fun x v => Host.reduce IntOp.andi x v reducesTo_S64x2048x512_S_d0_1_2 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_v13 main_v16
-- ==== Kernel.lean ====
abbrev S64x512 : Shape := ⟨2, ![64, 512]⟩
abbrev S64x2048x512 : Shape := ⟨3, ![64, 2048, 512]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S64x1024 : Shape := ⟨2, ![64, 1024]⟩
abbrev S1x512 : Shape := ⟨2, ![1, 512]⟩
abbrev S64x2048 : Shape := ⟨2, ![64, 2048]⟩
abbrev S32x128x512 : Shape := ⟨3, ![32, 128, 512]⟩
abbrev S32x512 : Shape := ⟨2, ![32, 512]⟩
abbrev S32x128 : Shape := ⟨2, ![32, 128]⟩
abbrev S4096x512 : Shape := ⟨2, ![4096, 512]⟩
abbrev S1x1x512 : Shape := ⟨3, ![1, 1, 512]⟩
abbrev S32x1x512 : Shape := ⟨3, ![32, 1, 512]⟩
abbrev S_ : Shape := ⟨0, ![]⟩
abbrev S64x2048x1 : Shape := ⟨3, ![64, 2048, 1]⟩
abbrev S64x1 : Shape := ⟨2, ![64, 1]⟩
abbrev S64x1x1 : Shape := ⟨3, ![64, 1, 1]⟩
abbrev S32x128x1 : Shape := ⟨3, ![32, 128, 1]⟩

abbrev nBuf : Space → Nat
  | .hbm => 37
  | .vmem => 15
  | .smem => 0
  | _ => 0

abbrev bufTy : (tb : Table) → Fin (tcTables nBuf tb) → BufTy
  | .hbm, ⟨0, _⟩ => ⟨S64x512, .f32⟩
  | .hbm, ⟨1, _⟩ => ⟨S64x512, .f32⟩
  | .hbm, ⟨2, _⟩ => ⟨S64x2048x512, .f32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S64x1024, .f32⟩
  | .hbm, ⟨10, _⟩ => ⟨S64x512, .f32⟩
  | .hbm, ⟨11, _⟩ => ⟨S1x512, .f32⟩
  | .hbm, ⟨12, _⟩ => ⟨S64x512, .f32⟩
  | .hbm, ⟨13, _⟩ => ⟨S64x512, .f32⟩
  | .hbm, ⟨14, _⟩ => ⟨S512x512, .bf16⟩
  | .hbm, ⟨15, _⟩ => ⟨S512, .f32⟩
  | .hbm, ⟨16, _⟩ => ⟨S64x2048, .f32⟩
  | .hbm, ⟨17, _⟩ => ⟨S_, .f32⟩
  | .hbm, ⟨18, _⟩ => ⟨S64x2048, .f32⟩
  | .hbm, ⟨19, _⟩ => ⟨S64x2048, .f32⟩
  | .hbm, ⟨20, _⟩ => ⟨S64x2048x1, .f32⟩
  | .hbm, ⟨21, _⟩ => ⟨S_, .f32⟩
  | .hbm, ⟨22, _⟩ => ⟨S64x1, .f32⟩
  | .hbm, ⟨23, _⟩ => ⟨S_, .f32⟩
  | .hbm, ⟨24, _⟩ => ⟨S64x1, .f32⟩
  | .hbm, ⟨25, _⟩ => ⟨S64x1, .f32⟩
  | .hbm, ⟨26, _⟩ => ⟨S64x1x1, .f32⟩
  | .hbm, ⟨27, _⟩ => ⟨S64x2048x1, .f32⟩
  | .hbm, ⟨28, _⟩ => ⟨S64x2048x1, .f32⟩
  | .hbm, ⟨29, _⟩ => ⟨S64x2048x1, .f32⟩
  | .hbm, ⟨30, _⟩ => ⟨S_, .f32⟩
  | .hbm, ⟨31, _⟩ => ⟨S64x1, .f32⟩
  | .hbm, ⟨32, _⟩ => ⟨S64x1x1, .f32⟩
  | .hbm, ⟨33, _⟩ => ⟨S64x2048x1, .f32⟩
  | .hbm, ⟨34, _⟩ => ⟨S64x2048x1, .f32⟩
  | .hbm, ⟨35, _⟩ => ⟨S64x2048, .f32⟩
  | .hbm, ⟨36, _⟩ => ⟨S64x512, .f32⟩
  | .local _ .vmem, ⟨0, _⟩ => ⟨S32x128x512, .f32⟩
  | .local _ .vmem, ⟨1, _⟩ => ⟨S32x128x512, .f32⟩
  | .local _ .vmem, ⟨2, _⟩ => ⟨S512x512, .bf16⟩
  | .local _ .vmem, ⟨3, _⟩ => ⟨S512, .f32⟩
  | .local _ .vmem, ⟨4, _⟩ => ⟨S32x512, .f32⟩
  | .local _ .vmem, ⟨5, _⟩ => ⟨S32x512, .f32⟩
  | .local _ .vmem, ⟨6, _⟩ => ⟨S512, .f32⟩
  | .local _ .vmem, ⟨7, _⟩ => ⟨S32x128, .f32⟩
  | .local _ .vmem, ⟨8, _⟩ => ⟨S32x128, .f32⟩
  | .local _ .vmem, ⟨9, _⟩ => ⟨S32x128x512, .f32⟩
  | .local _ .vmem, ⟨10, _⟩ => ⟨S32x128x512, .f32⟩
  | .local _ .vmem, ⟨11, _⟩ => ⟨S32x128, .f32⟩
  | .local _ .vmem, ⟨12, _⟩ => ⟨S32x128, .f32⟩
  | .local _ .vmem, ⟨13, _⟩ => ⟨S32x512, .f32⟩
  | .local _ .vmem, ⟨14, _⟩ => ⟨S32x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S64x512_S64x512_S64x1024_d1 : Shape.Concatenates [S64x512, S64x512] S64x1024 1
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bitsLt_bf16_f32 : FTy.bits .bf16 < FTy.bits .f32
  shapeCasts_S512x1_S512 : S512x1.ShapeCasts S512
  inb_S32x128x512_S32x128x512_0_0_0 : ∀ a, (![0, 0, 0] : Fin 3 → Nat) a + S32x128x512.size a ≤ S32x128x512.size a
  h_S32x128x512 : 0 < S32x128x512.numel
  shapeCasts_S32x128x512_S4096x512 : S32x128x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S4096x512_S32x128x512 : S4096x512.ShapeCasts S32x128x512
  inb_S512_S512_0 : ∀ a, (![0] : Fin 1 → Nat) a + S512.size a ≤ S512.size a
  h_S512 : 0 < S512.numel
  shapeCasts_S512_S1x1x512 : S512.ShapeCasts S1x1x512
  broadcasts_S1x1x512_S32x128x512 : S1x1x512.Broadcasts S32x128x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  shapeCasts_S32x512_S32x1x512 : S32x512.ShapeCasts S32x1x512
  broadcasts_S32x1x512_S32x128x512 : S32x1x512.Broadcasts S32x128x512
  shapeCasts_S512_S512 : S512.ShapeCasts S512
  reduces_S32x128x512_S32x128 : S32x128x512.Reduces [2] S32x128
  inb_S32x128_S32x128_0_0 : ∀ a, (![0, 0] : Fin 2 → Nat) a + S32x128.size a ≤ S32x128.size a
  h_S32x128 : 0 < S32x128.numel
  shapeCasts_S1_S_ : S1.ShapeCasts S_
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  reducesTo_S64x2048x1_S64x1_d1 : S64x2048x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x2048x1_0_1_2 : S64x1x1.BroadcastsInDim S64x2048x1 (![0, 1, 2] : Fin 3 → Fin S64x2048x1.rank)
  shapeCasts_S64x2048x1_S64x2048 : S64x2048x1.ShapeCasts S64x2048
  shapeCasts_S32x128_S32x128 : S32x128.ShapeCasts S32x128
  shapeCasts_S32x128_S32x128x1 : S32x128.ShapeCasts S32x128x1
  broadcasts_S32x128x1_S32x128x512 : S32x128x1.Broadcasts S32x128x512
  reduces_S32x128x512_S32x512 : S32x128x512.Reduces [1] S32x512
  dot_S64x1024_S1024x512_S64x512_1_0_0_1_n_n_wf : DotDims.WF S64x1024 S1024x512 S64x512 [1] [0] [0] [1] [] []
  dot_S4096x512_S512x512_S4096x512_1_0_0_1_n_n_wf : DotDims.WF S4096x512 S512x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x512.size a ≤ S64x2048x512.size a
  hwx0_0 : ∀ i : grid0.Coords, EltTy.bits .f32 = 32 ∨ (Rect.block (s := S64x2048x512) S32x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S64x512.size a
  hwx0_3 : ∀ i : grid0.Coords, EltTy.bits .f32 = 32 ∨ (Rect.block (s := S64x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S64x2048.size a
  hwx0_5 : ∀ i : grid0.Coords, EltTy.bits .f32 = 32 ∨ (Rect.block (s := S64x2048) S32x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x128x512.size a ≤ S64x2048x512.size a
  hwx1_0 : ∀ i : grid1.Coords, EltTy.bits .f32 = 32 ∨ (Rect.block (s := S64x2048x512) S32x128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S64x2048.size a
  hwx1_1 : ∀ i : grid1.Coords, EltTy.bits .f32 = 32 ∨ (Rect.block (s := S64x2048) S32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x512.size a ≤ S64x512.size a
  hwx1_2 : ∀ i : grid1.Coords, EltTy.bits .f32 = 32 ∨ (Rect.block (s := S64x512) S32x512.size (cc1_transform_2 i) (hinb1_2 i)).WholeWords (EltTy.packing .f32)

variable [Facts₀]

def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

abbrev win0_0 : Pipeline.Window sig grid0 :=
  Pipeline.Window.ofSpec (Memref.whole main_arg2) S32x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S32x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S32x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S32x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x512 : Shape := ⟨2, ![64, 512]⟩
abbrev S64x2048x512 : Shape := ⟨3, ![64, 2048, 512]⟩
abbrev S1024x512 : Shape := ⟨2, ![1024, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S64x1024 : Shape := ⟨2, ![64, 1024]⟩
abbrev S1x512 : Shape := ⟨2, ![1, 512]⟩
abbrev S1x1x512 : Shape := ⟨3, ![1, 1, 512]⟩
abbrev S64x1x512 : Shape := ⟨3, ![64, 1, 512]⟩
abbrev S64x2048x1 : Shape := ⟨3, ![64, 2048, 1]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩

abbrev nBuf : Space → Nat
  | .hbm => 44
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S64x512, .f32⟩
  | .hbm, ⟨2, _⟩ => ⟨S64x2048x512, .f32⟩
  | .hbm, ⟨3, _⟩ => ⟨S1024x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S64x1024, .f32⟩
  | .hbm, ⟨10, _⟩ => ⟨S64x512, .f32⟩
  | .hbm, ⟨11, _⟩ => ⟨S1x512, .f32⟩
  | .hbm, ⟨12, _⟩ => ⟨S64x512, .f32⟩
  | .hbm, ⟨13, _⟩ => ⟨S64x512, .f32⟩
  | .hbm, ⟨14, _⟩ => ⟨S64x2048x512, .f32⟩
  | .hbm, ⟨15, _⟩ => ⟨S1x1x512, .f32⟩
  | .hbm, ⟨16, _⟩ => ⟨S64x2048x512, .f32⟩
  | .hbm, ⟨17, _⟩ => ⟨S64x2048x512, .f32⟩
  | .hbm, ⟨18, _⟩ => ⟨S64x1x512, .f32⟩
  | .hbm, ⟨19, _⟩ => ⟨S64x2048x512, .f32⟩
  | .hbm, ⟨20, _⟩ => ⟨S64x2048x512, .f32⟩
  | .hbm, ⟨21, _⟩ => ⟨S64x2048x512, .f32⟩
  | .hbm, ⟨22, _⟩ => ⟨S64x2048x1, .f32⟩
  | .hbm, ⟨23, _⟩ => ⟨S1x1x1, .f32⟩
  | .hbm, ⟨24, _⟩ => ⟨S64x2048x1, .f32⟩
  | .hbm, ⟨25, _⟩ => ⟨S64x2048x1, .f32⟩
  | .hbm, ⟨26, _⟩ => ⟨S_, .f32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .f32⟩
  | .hbm, ⟨31, _⟩ => ⟨S64x1x1, .f32⟩
  | .hbm, ⟨32, _⟩ => ⟨S64x2048x1, .f32⟩
  | .hbm, ⟨33, _⟩ => ⟨S64x2048x1, .f32⟩
  | .hbm, ⟨34, _⟩ => ⟨S64x2048x1, .f32⟩
  | .hbm, ⟨35, _⟩ => ⟨S_, .f32⟩
  | .hbm, ⟨36, _⟩ => ⟨S64x1, .f32⟩
  | .hbm, ⟨37, _⟩ => ⟨S64x1x1, .f32⟩
  | .hbm, ⟨38, _⟩ => ⟨S64x2048x1, .f32⟩
  | .hbm, ⟨39, _⟩ => ⟨S64x2048x1, .f32⟩
  | .hbm, ⟨40, _⟩ => ⟨S64x2048x512, .f32⟩
  | .hbm, ⟨41, _⟩ => ⟨S64x2048x512, .f32⟩
  | .hbm, ⟨42, _⟩ => ⟨S_, .f32⟩
  | .hbm, ⟨43, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  concatenates_S64x512_S64x512_S64x1024_d1 : Shape.Concatenates [S64x512, S64x512] S64x1024 1
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S512_S1x1x512_2 : S512.BroadcastsInDim S1x1x512 (![2] : Fin 1 → Fin S1x1x512.rank)
  bcast_S1x1x512_S64x2048x512_0_1_2 : S1x1x512.BroadcastsInDim S64x2048x512 (![0, 1, 2] : Fin 3 → Fin S64x2048x512.rank)
  bcast_S64x512_S64x1x512_0_2 : S64x512.BroadcastsInDim S64x1x512 (![0, 2] : Fin 2 → Fin S64x1x512.rank)
  bcast_S64x1x512_S64x2048x512_0_1_2 : S64x1x512.BroadcastsInDim S64x2048x512 (![0, 1, 2] : Fin 3 → Fin S64x2048x512.rank)
  bcast_S1_S1x1x1_2 : S1.BroadcastsInDim S1x1x1 (![2] : Fin 1 → Fin S1x1x1.rank)
  bcast_S1x1x1_S64x2048x1_0_1_2 : S1x1x1.BroadcastsInDim S64x2048x1 (![0, 1, 2] : Fin 3 → Fin S64x2048x1.rank)
  reducesTo_S64x2048x1_S64x1_d1 : S64x2048x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x2048x1_0_1_2 : S64x1x1.BroadcastsInDim S64x2048x1 (![0, 1, 2] : Fin 3 → Fin S64x2048x1.rank)
  bcast_S64x2048x1_S64x2048x512_0_1_2 : S64x2048x1.BroadcastsInDim S64x2048x512 (![0, 1, 2] : Fin 3 → Fin S64x2048x512.rank)
  reducesTo_S64x2048x512_S64x512_d1 : S64x2048x512.ReducesTo [1] S64x512
  dot_S64x1024_S1024x512_S64x512_1_0_0_1_n_n_wf : DotDims.WF S64x1024 S1024x512 S64x512 [1] [0] [0] [1] [] []
  dot_S64x2048x512_S512x512_S64x2048x512_2_0_01_1_n_n_wf : DotDims.WF S64x2048x512 S512x512 S64x2048x512 [2] [0] [0, 1] [1] [] []
  dot_S64x2048x512_S512x1_S64x2048x1_2_0_01_1_n_n_wf : DotDims.WF S64x2048x512 S512x1 S64x2048x1 [2] [0] [0, 1] [1] [] []

variable [Facts₀]

def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf
def dot_S64x2048x512_S512x512_S64x2048x512_2_0_01_1_n_n : DotDims S64x2048x512 S512x512 S64x2048x512 where
  lhsContracting := [2]
  rhsContracting := [0]
  lhsNonContracting := [0, 1]
  rhsNonContracting := [1]
  lhsBatch := []
  rhsBatch := []
  wf := dot_S64x2048x512_S512x512_S64x2048x512_2_0_01_1_n_n_wf
def dot_S64x2048x512_S512x1_S64x2048x1_2_0_01_1_n_n : DotDims S64x2048x512 S512x1 S64x2048x1 where
  lhsContracting := [2]
  rhsContracting := [0]
  lhsNonContracting := [0, 1]
  rhsNonContracting := [1]
  lhsBatch := []
  rhsBatch := []
  wf := dot_S64x2048x512_S512x1_S64x2048x1_2_0_01_1_n_n_wf

class Facts : Prop extends Facts₀ where

variable [Facts]
-- ==== Proof.KernelRun.lean ====
/-
  The idealized kernel's run with its final memory NAMED.

  @main is four segments: the host lines that project the query, the score region, the host lines of the softmax, and
  the context region. Every weakly fair execution terminates, and in its final state every buffer that outlives the
  regions holds what the fold through those four segments leaves there (`Gen.W4`): the contents at launch, pushed
  through the first host lines, the score region's write-backs, the softmax lines, and the context region's
  write-backs. The generated frame keeps of this only that the arguments end as launched; the value claim needs the two
  results as well, so the same launch is stated here with the whole final memory kept.
-/
import proofs.«142122_j13889924235514_1_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that outlives the regions ends
    at the contents the fold through @main's four segments leaves (`Gen.W4`). -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.RunNamed

end
-- ==== Proof.Spec.lean ====
/-
  The two functions both programs compute, index by index, on the extended reals.

  `rawScore`: the additive-attention score before its scalar bias. At batch row `b` and time step `t` it is the sum
  over the 512 units `u` of `tanh (pq (b, u) + (∑ₕ x (b, t, h) · w (h, u) + b2 u)) · vv u`: the projected value row
  plus its bias, shifted by the projected query, squashed, and contracted with the scoring vector.

  `context`: the attention-weighted sum of the value rows, `∑ₜ a (b, t) · x (b, t, h)` over the 2048 time steps.

  `tileSum`: the same sum taken tile by tile — sixteen tiles of 128 time steps — which is how a grid that walks the
  time axis accumulates it; `tileSum_eq` regroups it into the plain sum. Addition on the extended reals is commutative
  and associative, so no finiteness is used.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The score, before the scalar bias, at row `b` and step `t`. -/
def rawScoreAt (x : FVec Ideal ⟨3, ![64, 2048, 512]⟩ .f32) (w : FVec Ideal ⟨2, ![512, 512]⟩ .bf16)
    (b2 : FVec Ideal ⟨1, ![512]⟩ .f32) (pq : FVec Ideal ⟨2, ![64, 512]⟩ .f32) (vv : FVec Ideal ⟨1, ![512]⟩ .f32)
    (b : Fin 64) (t : Fin 2048) : EReal :=
  ∑ u : Fin 512, Ideal.tanh (pq (ix2 b u) + ((∑ h : Fin 512, x (ix3 b t h) * w (ix2 h u)) + b2 (ix1 u))) * vv (ix1 u)

/-- The score array, before the scalar bias. -/
def rawScore (x : FVec Ideal ⟨3, ![64, 2048, 512]⟩ .f32) (w : FVec Ideal ⟨2, ![512, 512]⟩ .bf16)
    (b2 : FVec Ideal ⟨1, ![512]⟩ .f32) (pq : FVec Ideal ⟨2, ![64, 512]⟩ .f32) (vv : FVec Ideal ⟨1, ![512]⟩ .f32) :
    FVec Ideal ⟨2, ![64, 2048]⟩ .f32 :=
  fun j => rawScoreAt x w b2 pq vv (j 0) (j 1)

/-- The weighted sum of the value rows at row `b` and feature `h`. -/
def contextAt (x : FVec Ideal ⟨3, ![64, 2048, 512]⟩ .f32) (a : FVec Ideal ⟨2, ![64, 2048]⟩ .f32)
    (b : Fin 64) (h : Fin 512) : EReal :=
  ∑ t : Fin 2048, a (ix2 b t) * x (ix3 b t h)

/-- The context array. -/
def context (x : FVec Ideal ⟨3, ![64, 2048, 512]⟩ .f32) (a : FVec Ideal ⟨2, ![64, 2048]⟩ .f32) :
    FVec Ideal ⟨2, ![64, 512]⟩ .f32 :=
  fun j => contextAt x a (j 0) (j 1)

/-- Step `k` of tile `j` of the time axis: `128 j + k`. -/
def tstep (j : Fin 16) (k : Fin 128) : Fin 2048 := ⟨128 * j.val + k.val, by have := j.isLt; have := k.isLt; omega⟩

/-- A sum over the 2048 steps, taken as sixteen tiles of 128. -/
def tileSum (f : Fin 2048 → EReal) : EReal := ∑ j : Fin 16, ∑ k : Fin 128, f (tstep j k)

/-- The tiles partition the time axis: the tile-by-tile sum is the sum. -/
theorem tileSum_eq (f : Fin 2048 → EReal) : tileSum f = ∑ t : Fin 2048, f t := by
  unfold tileSum
  rw [← Finset.sum_product', Finset.univ_product_univ]
  refine Fintype.sum_equiv (finProdFinEquiv.trans (finCongr (show 16 * 128 = 2048 by norm_num))) _ _ fun p => ?_
  refine congrArg f (Fin.ext ?_)
  show 128 * p.1.val + p.2.val = p.2.val + 128 * p.1.val
  omega

end Cert.Attn

end
-- ==== Proof.Softmax.lean ====
/-
  The softmax along the time axis, as one function of the score.

  Both programs apply the same host lines to their score column `s` (batch × time × 1): the per-row maximum over time
  (joined with -∞), `e = exp (s - max)`, the per-row sum of `e` over time from 0, and the quotient `e / sum`. The lines
  cite shape facts (which axes broadcast, which axis reduces) that each printed program states for itself; they are
  propositions, so the function does not depend on whose witnesses it is given. It is never opened: the certificate only
  uses that equal scores give equal weights.
-/
import Idealize.ShloMosaic.PureOps.Ideal

noncomputable section

namespace Cert.Attn

open Idealize.ShloMosaic

abbrev Sbt1 : Shape := ⟨3, ![64, 2048, 1]⟩
abbrev Sb1 : Shape := ⟨2, ![64, 1]⟩
abbrev Sb11 : Shape := ⟨3, ![64, 1, 1]⟩
abbrev Ssc : Shape := ⟨0, ![]⟩

/-- The shape facts the softmax lines cite. -/
structure SoftmaxFacts : Prop where
  red : Sbt1.ReducesTo [1] Sb1
  pos : 0 < Ssc.numel
  b0 : Ssc.BroadcastsInDim Sb1 (![] : Fin 0 → Fin Sb1.rank)
  b1 : Sb1.BroadcastsInDim Sb11 (![0, 2] : Fin 2 → Fin Sb11.rank)
  b2 : Sb11.BroadcastsInDim Sbt1 (![0, 1, 2] : Fin 3 → Fin Sbt1.rank)

/-- The numerators: `exp (s - max (-∞, maxₜ s))`, the maximum per batch row. -/
def expShift (f : SoftmaxFacts) (s : FVec Ideal Sbt1 .f32) : FVec Ideal Sbt1 .f32 :=
  Host.exp (F := Ideal) (subf s (broadcastInDim Sbt1 ![0, 1, 2] f.b2
    (broadcastInDim Sb11 ![0, 2] f.b1
      (maximumf (broadcastInDim Sb1 ![] f.b0 (constant (F := Ideal) Ssc .f32 0xFF800000#32))
        (Host.reduce (FloatOps.maximumf : Ideal .f32 → Ideal .f32 → Ideal .f32) s (constant (F := Ideal) Ssc .f32 0xFF800000#32) f.red f.pos)))))

/-- The weights: the numerators over their sum along time. -/
def softmax (f : SoftmaxFacts) (s : FVec Ideal Sbt1 .f32) : FVec Ideal Sbt1 .f32 :=
  Host.divf (F := Ideal) (expShift f s) (broadcastInDim Sbt1 ![0, 1, 2] f.b2
    (broadcastInDim Sb11 ![0, 2] f.b1
      (Host.reduceAdd (F := Ideal) (expShift f s) (constant (F := Ideal) Ssc .f32 0x00000000#32) f.red f.pos)))

end Cert.Attn

end
-- ==== Proof.RefIndex.lean ====
/-
  The reference, read at an index.

  Its score at (b, t) is the contraction over the 512 units of `tanh (pq (b, u) + (∑ₕ x (b, t, h) · W₂ (h, u) + b₂ u))`
  with the scoring column `V (u, 0)`, plus the scalar bias: `rawScoreAt` of the specification plus `bv 0`
  (`score_eq`). Its attention weights are the softmax lines applied to that score, carried as the ONE function
  `Cert.Attn.softmax` that is never opened (`attn_eq`). Its context at (b, h) is `0 + ∑ₜ attn (b, t, 0) · x (b, t, h)`, and the
  leading zero is the additive unit of the extended reals (`context_eq`).
-/
import proofs.«142122_j13889924235514_1_alg».proof.Proof.Gen.ReferenceIdeal.Run
import proofs.«142122_j13889924235514_1_alg».proof.Proof.Gen.ReferenceIdeal.Read
import proofs.«142122_j13889924235514_1_alg».proof.Proof.Spec
import proofs.«142122_j13889924235514_1_alg».proof.Proof.Softmax
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Gen Cert.ReferenceIdeal.Read
open Idealize.ShloMosaic Idealize.ShloMosaic.TcCoe Idealize.SL.Sem Idealize.ShloMosaic.ValueIdx

/-- The reference's own witnesses of the shape facts the softmax lines cite. -/
theorem softmaxFacts : Cert.Attn.SoftmaxFacts :=
  ⟨reducesTo_S64x2048x1_S64x1_d1, h_S_, bcast_S_S64x1, bcast_S64x1_S64x1x1_0_2, bcast_S64x1x1_S64x2048x1_0_1_2⟩

/-- The reference's attention weights are the softmax lines applied to its score. -/
theorem attn_eq (x0 x1 : (⟨S64x512, .f32⟩ : BufTy).Contents (Elt Ideal)) (x2 : (⟨S64x2048x512, .f32⟩ : BufTy).Contents (Elt Ideal)) (x3 : (⟨S1024x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x1, .f32⟩ : BufTy).Contents (Elt Ideal)) (x8 : (⟨S1, .f32⟩ : BufTy).Contents (Elt Ideal)) :
    val_main_v27 (F := Ideal) x0 x1 x2 x3 x4 x5 x6 x7 x8 = Cert.Attn.softmax softmaxFacts (val_main_v16 (F := Ideal) x0 x1 x2 x3 x4 x5 x6 x7 x8) := rfl

/-- The reference's score at (b, t): the specification's raw score plus the scalar bias. The weight matrix and the
    scoring vector may be given in any spelling that agrees with `W₂` and with the column `V (·, 0)` entry by entry. -/
theorem score_eq (x0 x1 : (⟨S64x512, .f32⟩ : BufTy).Contents (Elt Ideal)) (x2 : (⟨S64x2048x512, .f32⟩ : BufTy).Contents (Elt Ideal)) (x3 : (⟨S1024x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x1, .f32⟩ : BufTy).Contents (Elt Ideal)) (x8 : (⟨S1, .f32⟩ : BufTy).Contents (Elt Ideal))
    (w : FVec Ideal ⟨2, ![512, 512]⟩ .bf16) (vv : FVec Ideal ⟨1, ![512]⟩ .f32)
    (hw : ∀ h u : Fin 512, w (ix2 h u) = x5 (ix2 h u)) (hv : ∀ u : Fin 512, vv (ix1 u) = x7 (ix2 u (0 : Fin 1)))
    (b : Fin 64) (t : Fin 2048) :
    val_main_v16 (F := Ideal) x0 x1 x2 x3 x4 x5 x6 x7 x8 (ix3 b t (0 : Fin 1))
      = Cert.Attn.rawScoreAt x2 w x6 (val_main_v4 (F := Ideal) x0 x1 x3 x4) vv b t + x8 (ix1 (0 : Fin 1)) := by
  rw [val_main_v16_apply, val_main_v13_apply, val_main_v15_apply, val_main_v14_apply]
  have e8 : idx_main_v14 (idx_main_v15 (ix3 b t (0 : Fin 1))) = ix1 (0 : Fin 1) :=
    funext fun a => Fin.ext (by match a with | ⟨0, _⟩ => rfl)
  rw [e8]
  show (∑ u : Fin 512, _) + _ = _
  unfold Cert.Attn.rawScoreAt
  refine congrArg (· + x8 (ix1 (0 : Fin 1))) (Finset.sum_congr rfl fun u _ => ?_)
  rw [val_main_v12_apply, val_main_v11_apply, val_main_v10_apply, val_main_v9_apply, val_main_v8_apply,
    val_main_v5_apply, val_main_v7_apply, val_main_v6_apply]
  have epq : idx_main_v9 (idx_main_v10 (lidx_main_v13 (ix3 b t (0 : Fin 1)) u)) = ix2 b u :=
    funext fun a => Fin.ext (by match a with | ⟨0, _⟩ => rfl | ⟨1, _⟩ => rfl)
  have e6 : idx_main_v6 (idx_main_v7 (lidx_main_v13 (ix3 b t (0 : Fin 1)) u)) = ix1 u :=
    funext fun a => Fin.ext (by match a with | ⟨0, _⟩ => rfl)
  have e7 : ridx_main_v13 (ix3 b t (0 : Fin 1)) u = ix2 u (0 : Fin 1) :=
    funext fun a => Fin.ext (by match a with | ⟨0, _⟩ => rfl | ⟨1, _⟩ => rfl)
  have es : (∑ k : Fin 512, x2 (lidx_main_v5 (lidx_main_v13 (ix3 b t (0 : Fin 1)) u) k) * x5 (ridx_main_v5 (lidx_main_v13 (ix3 b t (0 : Fin 1)) u) k))
      = ∑ h : Fin 512, x2 (ix3 b t h) * w (ix2 h u) :=
    Finset.sum_congr rfl fun h _ => by
      have e2 : lidx_main_v5 (lidx_main_v13 (ix3 b t (0 : Fin 1)) u) h = ix3 b t h :=
        funext fun a => Fin.ext (by match a with | ⟨0, _⟩ => rfl | ⟨1, _⟩ => rfl | ⟨2, _⟩ => rfl)
      have e5 : ridx_main_v5 (lidx_main_v13 (ix3 b t (0 : Fin 1)) u) h = ix2 h u :=
        funext fun a => Fin.ext (by match a with | ⟨0, _⟩ => rfl | ⟨1, _⟩ => rfl)
      rw [e2, e5, hw]
  rw [es, epq, e6, e7, hv]
  rfl

/-- The reference's context at (b, h): the weighted sum of the value rows, for any array `a` that holds the attention
    weights with the unit axis dropped. -/
theorem context_eq (x0 x1 : (⟨S64x512, .f32⟩ : BufTy).Contents (Elt Ideal)) (x2 : (⟨S64x2048x512, .f32⟩ : BufTy).Contents (Elt Ideal)) (x3 : (⟨S1024x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (x7 : (⟨S512x1, .f32⟩ : BufTy).Contents (Elt Ideal)) (x8 : (⟨S1, .f32⟩ : BufTy).Contents (Elt Ideal))
    (a : FVec Ideal ⟨2, ![64, 2048]⟩ .f32)
    (ha : ∀ (b : Fin 64) (t : Fin 2048), a (ix2 b t) = val_main_v27 (F := Ideal) x0 x1 x2 x3 x4 x5 x6 x7 x8 (ix3 b t (0 : Fin 1)))
    (b : Fin 64) (h : Fin 512) :
    val_main_v30 (F := Ideal) x0 x1 x2 x3 x4 x5 x6 x7 x8 (ix2 b h) = Cert.Attn.contextAt x2 a b h := by
  rw [val_main_v30_apply]
  show Ideal.ofBits .f32 0x00000000#32 + _ = _
  rw [Ideal.ofBits_zero_f32, zero_add]
  unfold Cert.Attn.contextAt
  refine Finset.sum_congr rfl fun t _ => ?_
  rw [val_main_v29_apply, val_main_v28_apply]
  have e1 : idx_main_v30 (ix2 b h) t = ix3 b t h :=
    funext fun a => Fin.ext (by match a with | ⟨0, _⟩ => rfl | ⟨1, _⟩ => rfl | ⟨2, _⟩ => rfl)
  have e2 : idx_main_v28 (ix3 b t h) = ix3 b t (0 : Fin 1) :=
    funext fun a => Fin.ext (by match a with | ⟨0, _⟩ => rfl | ⟨1, _⟩ => rfl | ⟨2, _⟩ => rfl)
  rw [e1, e2, ha]
  rfl

end Cert.ReferenceIdeal.Stages

end
-- ==== Proof.HostLines.lean ====
/-
  What the kernel program's host lines leave in the buffers the two regions read.

  Before the score region: the value array and the two bias vectors are still the arguments; the projected query is
  the same four host operations the reference applies (carried as the reference's own stage, never opened); the
  weight matrix is the argument with its format changed, and the scoring vector is the argument's single column with
  the unit axis dropped. Between the regions: the score region's result gets the scalar bias and a unit axis
  (`biasedScore`), the softmax lines are applied to it (the one function `Cert.Attn.softmax`), and the context region reads the
  result with the unit axis dropped again (`attnRows`); the value array is still the argument.
-/
import proofs.«142122_j13889924235514_1_alg».proof.Proof.Gen.KernelIdeal.Frame
import proofs.«142122_j13889924235514_1_alg».proof.Proof.RefIndex
import proofs.«142122_j13889924235514_1_alg».proof.Proof.Softmax
import Idealize.ShloMosaic.Lib.StableHlo.Run
import Idealize.ShloMosaic.PureOps.Ideal

set_option maxRecDepth 16384

noncomputable section

namespace Cert.KernelIdeal.HostLines

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The score with the scalar bias added to every entry, as a column along a trailing unit axis. -/
def biasedScore (r : FVec Ideal S64x2048 .f32) (b8 : FVec Ideal S1 .f32) : FVec Ideal S64x2048x1 .f32 :=
  broadcastInDim S64x2048x1 ![0, 1] bcast_S64x2048_S64x2048x1_0_1
    (addf r (broadcastInDim S64x2048 ![] bcast_S_S64x2048 (shapeCast S_ b8 shapeCasts_S1_S_) : FVec Ideal S64x2048 .f32) : FVec Ideal S64x2048 .f32)

/-- The kernel program's own witnesses of the shape facts the softmax lines cite. -/
theorem softmaxFacts : Cert.Attn.SoftmaxFacts :=
  ⟨reducesTo_S64x2048x1_S64x1_d1, h_S_, bcast_S_S64x1, bcast_S64x1_S64x1x1_0_2, bcast_S64x1x1_S64x2048x1_0_1_2⟩

/-- The attention weights with their trailing unit axis dropped. -/
def attnRows (s : FVec Ideal S64x2048x1 .f32) : FVec Ideal S64x2048 .f32 :=
  shapeCast S64x2048 s shapeCasts_S64x2048x1_S64x2048

/-! ## Before the score region -/

theorem entry_values (c : Dev nD) : W1 m ρ c (Proc.devRef .tc main_arg2) = m ((c : Thread nD τ).loc main_arg2) := by
  show StableHlo.after hostOps0 (W0 m ρ c) (Proc.devRef .tc main_arg2) = _
  after_results <;> rfl

theorem entry_bias2 (c : Dev nD) : W1 m ρ c (Proc.devRef .tc main_arg6) = m ((c : Thread nD τ).loc main_arg6) := by
  show StableHlo.after hostOps0 (W0 m ρ c) (Proc.devRef .tc main_arg6) = _
  after_results <;> rfl

theorem entry_biasv (c : Dev nD) : W1 m ρ c (Proc.devRef .tc main_arg8) = m ((c : Thread nD τ).loc main_arg8) := by
  show StableHlo.after hostOps0 (W0 m ρ c) (Proc.devRef .tc main_arg8) = _
  after_results <;> rfl

/-- The projected query is the reference's stage of the same four host operations. -/
theorem entry_projq (c : Dev nD) : W1 m ρ c (Proc.devRef .tc main_v4)
    = Cert.ReferenceIdeal.Read.val_main_v4 (F := Ideal) (m ((c : Thread nD τ).loc main_arg0)) (m ((c : Thread nD τ).loc main_arg1))
        (m ((c : Thread nD τ).loc main_arg3)) (m ((c : Thread nD τ).loc main_arg4)) := by
  show StableHlo.after hostOps0 (W0 m ρ c) (Proc.devRef .tc main_v4) = _
  after_results <;> rfl

/-- The weight matrix the score region reads: the argument, its format changed. -/
theorem entry_weights (c : Dev nD) : W1 m ρ c (Proc.devRef .tc main_v5)
    = (truncf .bf16 (m ((c : Thread nD τ).loc main_arg5) : FVec Ideal S512x512 .f32) bitsLt_bf16_f32 : FVec Ideal S512x512 .bf16) := by
  show StableHlo.after hostOps0 (W0 m ρ c) (Proc.devRef .tc main_v5) = _
  after_results <;> rfl

/-- The scoring vector the score region reads: the argument's one column, the unit axis dropped. -/
theorem entry_scoring (c : Dev nD) : W1 m ρ c (Proc.devRef .tc main_v6)
    = (shapeCast S512 (m ((c : Thread nD τ).loc main_arg7) : FVec Ideal S512x1 .f32) shapeCasts_S512x1_S512 : FVec Ideal S512 .f32) := by
  show StableHlo.after hostOps0 (W0 m ρ c) (Proc.devRef .tc main_v6) = _
  after_results <;> rfl

/-! ## Between the regions -/

theorem mid_biasv (c : Dev nD) : W2 m ρ c (Proc.devRef .tc main_arg8) = m ((c : Thread nD τ).loc main_arg8) :=
  (W2_of_ne m ρ c main_arg8 (by decide)).trans (entry_biasv m ρ c)

theorem mid_values (c : Dev nD) : W3 m ρ c (Proc.devRef .tc main_arg2) = m ((c : Thread nD τ).loc main_arg2) := by
  show StableHlo.after hostOps1 (W2 m ρ c) (Proc.devRef .tc main_arg2) = _
  after_results
  exact ((W2_arr m ρ c 0).trans (((dat0 (V1 m ρ) c).arrAt_in 0 rfl _).trans (A_eq0 (V1 m ρ) c 0))).trans (entry_values m ρ c)

/-- The attention weights: the softmax lines applied to the biased score of what the score region left. -/
theorem mid_attn (c : Dev nD) : W3 m ρ c (Proc.devRef .tc main_v22)
    = Cert.Attn.softmax softmaxFacts
        (biasedScore (W2 m ρ c (Proc.devRef .tc main_v7)) (W2 m ρ c (Proc.devRef .tc main_arg8))) := by
  show StableHlo.after hostOps1 (W2 m ρ c) (Proc.devRef .tc main_v22) = _
  after_results_simp
  rfl

/-- What the context region reads as weights: the same, the unit axis dropped. -/
theorem mid_attnRows (c : Dev nD) : W3 m ρ c (Proc.devRef .tc main_v23)
    = attnRows (Cert.Attn.softmax softmaxFacts
        (biasedScore (W2 m ρ c (Proc.devRef .tc main_v7)) (W2 m ρ c (Proc.devRef .tc main_arg8)))) := by
  show StableHlo.after hostOps1 (W2 m ρ c) (Proc.devRef .tc main_v23) = _
  after_results_simp
  rfl

end Cert.KernelIdeal.HostLines

end
-- ==== Proof.ScoreRegion.lean ====
/-
  The score region, read as one function of its arrays.

  The region walks a 2 × 16 grid. At point (i, j) it holds rows 32 i … 32 i + 31 and time steps 128 j … 128 j + 127 of
  the value array x (a 32 × 128 × 512 block), the same rows of the projected query pq (32 × 512), and the whole of the
  weights w (512 × 512), the bias b2 and the scoring vector vv (512 each). Its body flattens the value block to
  4096 × 512, multiplies by w, unflattens, adds b2 along the last axis and pq along the first and last, takes tanh,
  multiplies by vv along the last axis and sums the last axis away. So at (p, q) of the block it leaves
      ∑ᵤ tanh (pq (p, u) + (∑ₕ x (p, q, h) · w (h, u) + b2 u)) · vv u,
  and, the blocks being where they are, that is the score at row 32 i + p and step 128 j + q. Each point writes its
  32 × 128 block back, and the 32 blocks tile the 64 × 2048 score array, so after the last point the array is the score
  at every row and step.

  The module goes in that order: the body's non-pointwise steps each at an index (the lane sum, the two repeated
  operands, the flattened product), the body's result at an index, each window's block as a part of its array, the
  block a point writes back, the tiling, and the array at the end.
-/
import proofs.«142122_j13889924235514_1_alg».proof.Proof.Gen.KernelIdeal.Frame
import proofs.«142122_j13889924235514_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ScoreRegion

open Cert.KernelIdeal Cert.KernelIdeal.Gen Idealize.ShloMosaic Idealize.ShloMosaic.TcCoe Idealize.SL.Sem
open Idealize.ShloMosaic.ValueIdx
open Idealize.ShloMosaic.Pipeline (Dat)

/-- The lane sum: adding up axis 2 of a 32 × 128 × 512 block leaves, at (p, q), the sum over the 512 lanes. -/
theorem laneSum_apply (src : FVec Ideal S32x128x512 .f32) (p : Fin 32) (q : Fin 128) :
    multiReduction (F := Ideal) .add [2] S32x128 src 0x00000000#32 reduces_S32x128x512_S32x128 (.inl rfl) rfl (ix2 p q)
      = ∑ u : Fin 512, src (ix3 p q u) := by
  refine (Ideal.multiReduction_add_single src 0x00000000#32 reduces_S32x128x512_S32x128 (.inl rfl) rfl (ix2 p q)).trans ?_
  show ∑ u : Fin 512, src (reduces_S32x128x512_S32x128.lift (ix2 p q) u) = _
  refine Finset.sum_congr rfl fun u _ => congrArg src ?_
  funext a
  apply Fin.ext
  match a with
  | ⟨0, _⟩ => rfl
  | ⟨1, _⟩ => rfl
  | ⟨2, _⟩ => rfl

/-- A length-512 vector laid along the last axis of a 32 × 128 × 512 block reads, at (p, q, u), its entry u. -/
theorem rowVec_apply (v : FVec Ideal S512 .f32) (p : Fin 32) (q : Fin 128) (u : Fin 512) :
    broadcastTo S32x128x512 (shapeCast S1x1x512 v shapeCasts_S512_S1x1x512) broadcasts_S1x1x512_S32x128x512 (ix3 p q u)
      = v (ix1 u) := by
  refine (broadcastTo_apply _ broadcasts_S1x1x512_S32x128x512 (ix3 p q u) (ix3 (0 : Fin 1) (0 : Fin 1) u) fun a => ?_).trans ?_
  · match a with
    | ⟨0, _⟩ => rfl
    | ⟨1, _⟩ => rfl
    | ⟨2, _⟩ => show u.val = if (512 : Nat) = 1 then 0 else u.val; rw [if_neg (by decide)]
  · refine shapeCast_apply v shapeCasts_S512_S1x1x512 _ (ix1 u) ?_
    rw [Shape.rowMajor_val_one, Shape.rowMajor_val_three]
    show u.val = (0 * 1 + 0) * 512 + u.val
    omega

/-- The per-row projection (32 × 512) repeated along the 128 steps reads, at (p, q, u), its entry (p, u). -/
theorem rowMat_apply (v : FVec Ideal S32x512 .f32) (p : Fin 32) (q : Fin 128) (u : Fin 512) :
    broadcastTo S32x128x512 (shapeCast S32x1x512 (shapeCast S32x512 v shapeCasts_S32x512_S32x512) shapeCasts_S32x512_S32x1x512)
        broadcasts_S32x1x512_S32x128x512 (ix3 p q u)
      = v (ix2 p u) := by
  rw [shapeCast_self]
  refine (broadcastTo_apply _ broadcasts_S32x1x512_S32x128x512 (ix3 p q u) (ix3 p (0 : Fin 1) u) fun a => ?_).trans ?_
  · match a with
    | ⟨0, _⟩ => show p.val = if (32 : Nat) = 1 then 0 else p.val; rw [if_neg (by decide)]
    | ⟨1, _⟩ => rfl
    | ⟨2, _⟩ => show u.val = if (512 : Nat) = 1 then 0 else u.val; rw [if_neg (by decide)]
  · refine shapeCast_apply v shapeCasts_S32x512_S32x1x512 _ (ix2 p u) ?_
    rw [Shape.rowMajor_val_two, Shape.rowMajor_val_three]
    show p.val * 512 + u.val = (p.val * 1 + 0) * 512 + u.val
    omega

/-- Row 128 p + q of the 4096 flattened rows. -/
abbrev flatRow (p : Fin 32) (q : Fin 128) : Fin 4096 := ⟨128 * p.val + q.val, by have := p.isLt; have := q.isLt; omega⟩

/-- The left operand's index at output (r, u) and contraction coordinate k: row r … -/
theorem lhs_row (i : S4096x512.Idx) (k : dot_S4096x512_S512x512_S4096x512_1_0_0_1_n_n.contr.Idx) :
    (dot_S4096x512_S512x512_S4096x512_1_0_0_1_n_n.lhsIdx i k 0).val = (i 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
/-- … and column k. -/
theorem lhs_col (i : S4096x512.Idx) (k : dot_S4096x512_S512x512_S4096x512_1_0_0_1_n_n.contr.Idx) :
    (dot_S4096x512_S512x512_S4096x512_1_0_0_1_n_n.lhsIdx i k 1).val = (k ⟨0, by decide⟩).val :=
  dot_S4096x512_S512x512_S4096x512_1_0_0_1_n_n.lhsIdx_val_of_single rfl i k
/-- The right operand's index there: row k … -/
theorem rhs_row (i : S4096x512.Idx) (k : dot_S4096x512_S512x512_S4096x512_1_0_0_1_n_n.contr.Idx) :
    (dot_S4096x512_S512x512_S4096x512_1_0_0_1_n_n.rhsIdx i k 0).val = (k ⟨0, by decide⟩).val :=
  dot_S4096x512_S512x512_S4096x512_1_0_0_1_n_n.rhsIdx_val_of_single rfl i k
/-- … and column u. -/
theorem rhs_col (i : S4096x512.Idx) (k : dot_S4096x512_S512x512_S4096x512_1_0_0_1_n_n.contr.Idx) :
    (dot_S4096x512_S512x512_S4096x512_1_0_0_1_n_n.rhsIdx i k 1).val = (i 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- The product of the flattened block (4096 × 512) with the weights, into the zero splat, read at flat row r and unit u:
    the sum over the 512 features. -/
theorem flatProduct_apply (l : FVec Ideal S4096x512 .bf16) (w : FVec Ideal S512x512 .bf16) (r : Fin 4096) (u : Fin 512) :
    matmul dot_S4096x512_S512x512_S4096x512_1_0_0_1_n_n none l w (constant (F := Ideal) S4096x512 .f32 0x00000000#32) (ix2 r u)
      = ∑ h : Fin 512, l (ix2 r h) * w (ix2 h u) := by
  refine (Ideal.matmul_constant_zero_apply dot_S4096x512_S512x512_S4096x512_1_0_0_1_n_n none l w (ix2 r u)).trans ?_
  rw [← Equiv.sum_comp (ValueIdx.contrEquiv1 dot_S4096x512_S512x512_S4096x512_1_0_0_1_n_n 512 rfl rfl).symm]
  refine Finset.sum_congr rfl fun h _ => ?_
  have hk := ValueIdx.contrEquiv1_symm_val dot_S4096x512_S512x512_S4096x512_1_0_0_1_n_n 512 rfl rfl h
  have el : dot_S4096x512_S512x512_S4096x512_1_0_0_1_n_n.lhsIdx (ix2 r u) ((ValueIdx.contrEquiv1 dot_S4096x512_S512x512_S4096x512_1_0_0_1_n_n 512 rfl rfl).symm h) = ix2 r h := funext fun a => Fin.ext (by
    match a with
    | ⟨0, _⟩ => exact lhs_row _ _
    | ⟨1, _⟩ => exact (lhs_col _ _).trans hk)
  have er : dot_S4096x512_S512x512_S4096x512_1_0_0_1_n_n.rhsIdx (ix2 r u) ((ValueIdx.contrEquiv1 dot_S4096x512_S512x512_S4096x512_1_0_0_1_n_n 512 rfl rfl).symm h) = ix2 h u := funext fun a => Fin.ext (by
    match a with
    | ⟨0, _⟩ => exact (rhs_row _ _).trans hk
    | ⟨1, _⟩ => exact rhs_col _ _)
  rw [el, er]

/-- The projection of the value block: flatten (p, q) to row 128 p + q, multiply by the weights, unflatten. At (p, q, u)
    it is the sum over the 512 features h of x (p, q, h) · w (h, u). -/
theorem projection_apply (x : FVec Ideal S32x128x512 .f32) (w : FVec Ideal S512x512 .bf16) (p : Fin 32) (q : Fin 128) (u : Fin 512) :
    shapeCast S32x128x512
        (matmul dot_S4096x512_S512x512_S4096x512_1_0_0_1_n_n none
          (shapeCast S4096x512 (truncf .bf16 x bitsLt_bf16_f32) shapeCasts_S32x128x512_S4096x512)
          (shapeCast S512x512 w shapeCasts_S512x512_S512x512)
          (constant (F := Ideal) S4096x512 .f32 0x00000000#32))
        shapeCasts_S4096x512_S32x128x512 (ix3 p q u)
      = ∑ h : Fin 512, x (ix3 p q h) * w (ix2 h u) := by
  rw [shapeCast_self]
  refine (shapeCast_apply _ shapeCasts_S4096x512_S32x128x512 (ix3 p q u) (ix2 (flatRow p q) u) ?_).trans ?_
  · rw [Shape.rowMajor_val_two, Shape.rowMajor_val_three]
    show (128 * p.val + q.val) * 512 + u.val = (p.val * 128 + q.val) * 512 + u.val
    omega
  refine (flatProduct_apply _ w (flatRow p q) u).trans ?_
  refine Finset.sum_congr rfl fun h _ => congrArg (· * w (ix2 h u)) ?_
  refine (shapeCast_apply _ shapeCasts_S32x128x512_S4096x512 (ix2 (flatRow p q) h) (ix3 p q h) ?_).trans rfl
  rw [Shape.rowMajor_val_two, Shape.rowMajor_val_three]
  show (p.val * 128 + q.val) * 512 + h.val = (128 * p.val + q.val) * 512 + h.val
  omega

/-- THE BODY'S RESULT AT (p, q): the sum over the 512 units u of
    tanh (pq (p, u) + (∑ₕ x (p, q, h) · w (h, u) + b2 u)) · vv u, in the blocks' own coordinates. -/
theorem payload_apply (x0 : FVec Ideal S32x128x512 .f32) (x1 : FVec Ideal S512x512 .bf16) (x2 : FVec Ideal S512 .f32)
    (x3 : FVec Ideal S32x512 .f32) (x4 : FVec Ideal S512 .f32) (p : Fin 32) (q : Fin 128) :
    k0_pay1 (F := Ideal) x0 x1 x2 x3 x4 (ix2 p q)
      = ∑ u : Fin 512, Ideal.tanh (x3 (ix2 p u) + ((∑ h : Fin 512, x0 (ix3 p q h) * x1 (ix2 h u)) + x2 (ix1 u))) * x4 (ix1 u) := by
  unfold k0_pay1
  refine (laneSum_apply _ p q).trans ?_
  refine Finset.sum_congr rfl fun u _ => ?_
  refine congrArg₂ (· * ·) (congrArg Ideal.tanh (congrArg₂ (· + ·) (rowMat_apply x3 p q u)
    (congrArg₂ (· + ·) (projection_apply x0 x1 p q u) (rowVec_apply x2 p q u)))) ?_
  rw [shapeCast_self]
  exact rowVec_apply x4 p q u

/-! ## From the blocks to the array -/

/-- The zero offsets of a whole block, at ranks 1, 2 and 3, as the constant function. -/
theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- Where each window's block sits at grid point t, decided over the 32 points: the value block and the output block at
    row block t / 16 and step block t % 16, the projected query at row block t / 16, the weights and the two vectors whole. -/
theorem block_index : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = t.val / 16 ∧ win0_3.index t (1 : Fin 2) = 0
    ∧ win0_4.index t (0 : Fin 1) = 0
    ∧ win0_5.index t (0 : Fin 2) = t.val / 16 ∧ win0_5.index t (1 : Fin 2) = t.val % 16 :=
  (by decide +kernel : ∀ t : Fin grid0.N, _)

section Blocks
variable (V : (c : Dev nD) → (b : Ref sig .tc) → Buf (Elt Ideal) ((c : Thread nD τ).loc b)) (c : Dev nD) (t : Fin cfg0.N)

/-- The value block at point t is rows 32 (t / 16) + p and steps 128 (t % 16) + q of the value array. -/
theorem valueBlock_apply (p : Fin 32) (q : Fin 128) (h : Fin 512) (b : Fin 64) (s : Fin 2048)
    (hb : b.val = 32 * (t.val / 16) + p.val) (hs : s.val = 128 * (t.val % 16) + q.val) :
    (iblk0 (F := Ideal) V c 0 t : Vec Ideal S32x128x512 .f32) (ix3 p q h)
      = (V c main_arg2 : S64x2048x512.Idx → EReal) (ix3 b s h) := by
  obtain ⟨e0, e1, e2, -⟩ := block_index t
  unfold iblk0
  rw [View.read_apply]
  show V c main_arg2 _ = V c main_arg2 _
  congr 1
  funext a
  apply Fin.ext
  match a with
  | ⟨0, _⟩ => show win0_0.index t (0 : Fin 3) * 32 + 1 * p.val = b.val; rw [e0, hb]; omega
  | ⟨1, _⟩ => show win0_0.index t (1 : Fin 3) * 128 + 1 * q.val = s.val; rw [e1, hs]; omega
  | ⟨2, _⟩ => show win0_0.index t (2 : Fin 3) * 512 + 1 * h.val = h.val; rw [e2]; omega

end Blocks

section Blocks2
variable (V : (c : Dev nD) → (b : Ref sig .tc) → Buf (Elt Ideal) ((c : Thread nD τ).loc b)) (c : Dev nD) (t : Fin cfg0.N)

/-- The weight window is the whole weight array at every point. -/
theorem weightBlock_apply (h u : Fin 512) :
    (iblk0 (F := Ideal) V c 1 t : Vec Ideal S512x512 .bf16) (ix2 h u) = (V c main_v5 : S512x512.Idx → EReal) (ix2 h u) := by
  obtain ⟨-, -, -, e0, e1, -⟩ := block_index t
  unfold iblk0
  rw [View.read_apply]
  show V c main_v5 _ = V c main_v5 _
  congr 1
  funext a
  apply Fin.ext
  match a with
  | ⟨0, _⟩ => show win0_1.index t (0 : Fin 2) * 512 + 1 * h.val = h.val; rw [e0]; omega
  | ⟨1, _⟩ => show win0_1.index t (1 : Fin 2) * 512 + 1 * u.val = u.val; rw [e1]; omega

/-- The bias window is the whole bias vector at every point. -/
theorem biasBlock_apply (u : Fin 512) :
    (iblk0 (F := Ideal) V c 2 t : Vec Ideal S512 .f32) (ix1 u) = (V c main_arg6 : S512.Idx → EReal) (ix1 u) := by
  obtain ⟨-, -, -, -, -, e0, -⟩ := block_index t
  unfold iblk0
  rw [View.read_apply]
  show V c main_arg6 _ = V c main_arg6 _
  congr 1
  funext a
  apply Fin.ext
  match a with
  | ⟨0, _⟩ => show win0_2.index t (0 : Fin 1) * 512 + 1 * u.val = u.val; rw [e0]; omega

/-- The projected-query block at point t is rows 32 (t / 16) + p of the projected-query array. -/
theorem queryBlock_apply (p : Fin 32) (u : Fin 512) (b : Fin 64) (hb : b.val = 32 * (t.val / 16) + p.val) :
    (iblk0 (F := Ideal) V c 3 t : Vec Ideal S32x512 .f32) (ix2 p u) = (V c main_v4 : S64x512.Idx → EReal) (ix2 b u) := by
  obtain ⟨-, -, -, -, -, -, e0, e1, -⟩ := block_index t
  unfold iblk0
  rw [View.read_apply]
  show V c main_v4 _ = V c main_v4 _
  congr 1
  funext a
  apply Fin.ext
  match a with
  | ⟨0, _⟩ => show win0_3.index t (0 : Fin 2) * 32 + 1 * p.val = b.val; rw [e0, hb]; omega
  | ⟨1, _⟩ => show win0_3.index t (1 : Fin 2) * 512 + 1 * u.val = u.val; rw [e1]; omega

/-- The scoring-vector window is the whole scoring vector at every point. -/
theorem scoringBlock_apply (u : Fin 512) :
    (iblk0 (F := Ideal) V c 4 t : Vec Ideal S512 .f32) (ix1 u) = (V c main_v6 : S512.Idx → EReal) (ix1 u) := by
  obtain ⟨-, -, -, -, -, -, -, -, e0, -⟩ := block_index t
  unfold iblk0
  rw [View.read_apply]
  show V c main_v6 _ = V c main_v6 _
  congr 1
  funext a
  apply Fin.ext
  match a with
  | ⟨0, _⟩ => show win0_4.index t (0 : Fin 1) * 512 + 1 * u.val = u.val; rw [e0]; omega

/-- The body's result on the five blocks of point t, at (p, q), is the score at row 32 (t / 16) + p and step
    128 (t % 16) + q. -/
theorem pointScore_apply (p : Fin 32) (q : Fin 128) (b : Fin 64) (s : Fin 2048)
    (hb : b.val = 32 * (t.val / 16) + p.val) (hs : s.val = 128 * (t.val % 16) + q.val) :
    k0_pay1 (F := Ideal) (iblk0 V c 0 t) (iblk0 V c 1 t) (iblk0 V c 2 t) (iblk0 V c 3 t) (iblk0 V c 4 t) (ix2 p q)
      = Cert.Attn.rawScoreAt (V c main_arg2) (V c main_v5) (V c main_arg6) (V c main_v4) (V c main_v6) b s := by
  refine (payload_apply (iblk0 V c 0 t) (iblk0 V c 1 t) (iblk0 V c 2 t) (iblk0 V c 3 t) (iblk0 V c 4 t) p q).trans ?_
  unfold Cert.Attn.rawScoreAt
  refine Finset.sum_congr rfl fun u _ => ?_
  refine congrArg₂ (· * ·) (congrArg Ideal.tanh (congrArg₂ (· + ·) (queryBlock_apply V c t p u b hb)
    (congrArg₂ (· + ·) (Finset.sum_congr rfl fun h _ => congrArg₂ (· * ·) (valueBlock_apply V c t p q h b s hb hs)
      (weightBlock_apply V c t h u)) (biasBlock_apply V c t u)))) (scoringBlock_apply V c t u)

/-- WHAT POINT t WRITES BACK is block t of the score array. -/
theorem flushed_eq :
    (dat0 (F := Ideal) V c).flushed 5 t
      = ((cfg0.win 5).blk t).view.read (Elt Ideal)
          (Cert.Attn.rawScore (V c main_arg2) (V c main_v5) (V c main_arg6) (V c main_v4) (V c main_v6)) := by
  show (cfg0.win 5).cut (grid0.coords t) ((dat0 V c).after 5 t) = _
  rw [after0_5]
  unfold out0_5
  rw [View.canon_unit_zero zeros2]
  simp only [View.ld_unit_zero (S := S32x128x512) zeros3, View.ld_unit_zero (S := S512x512) zeros2,
    View.ld_unit_zero (S := S512) zeros1, View.ld_unit_zero (S := S32x512) zeros2]
  obtain ⟨-, -, -, -, -, -, -, -, -, e0, e1⟩ := block_index t
  funext j
  obtain ⟨p, q, rfl⟩ : ∃ (p : Fin 32) (q : Fin 128), j = ix2 p q := ⟨j 0, j 1, eq_ix2 j⟩
  have ht : t.val < 32 := by have h := t.isLt; have hN : cfg0.N = 32 := N_0; omega
  refine (pointScore_apply V c t p q ⟨32 * (t.val / 16) + p.val, by have := p.isLt; omega⟩
    ⟨128 * (t.val % 16) + q.val, by have := q.isLt; omega⟩ rfl rfl).trans ?_
  rw [View.read_apply]
  show _ = Cert.Attn.rawScoreAt _ _ _ _ _ _ _
  refine congrArg₂ (Cert.Attn.rawScoreAt (V c main_arg2) (V c main_v5) (V c main_arg6) (V c main_v4) (V c main_v6))
    (Fin.ext ?_) (Fin.ext ?_)
  · show 32 * (t.val / 16) + p.val = win0_5.index t (0 : Fin 2) * 32 + 1 * p.val
    rw [e0]; omega
  · show 128 * (t.val % 16) + q.val = win0_5.index t (1 : Fin 2) * 128 + 1 * q.val
    rw [e1]; omega

end Blocks2

/-- An index of the score array is in point t's block iff each coordinate is in the block's range on its axis. -/
theorem mem_block (t : Fin cfg0.N) (i : S64x2048.Idx) :
    i ∈ ((cfg0.win 5).blk t).view.set
      ↔ ∀ a : Fin 2, win0_5.index t a * S32x128.size a ≤ (i a).val ∧ (i a).val < win0_5.index t a * S32x128.size a + S32x128.size a := by
  show i ∈ ((View.whole main_v7).slice (win0_5.rect t)).set ↔ _
  rw [View.set_slice_whole, Rect.mem_set_unit]
  exact Iff.rfl

/-- Every (row, step) of the score array is written by some point: row b and step s lie in the block of point
    16 (b / 32) + s / 128. -/
theorem covered (i : S64x2048.Idx) :
    ∃ t : Fin cfg0.N, (cfg0.win 5).flush t = true ∧ i ∈ ((cfg0.win 5).blk t).view.set := by
  have hi0 : (i 0).val < 64 := (i 0).isLt
  have hi1 : (i 1).val < 2048 := (i 1).isLt
  have hN : cfg0.N = 32 := N_0
  obtain ⟨t, ht⟩ : ∃ t : Fin cfg0.N, t.val = 16 * ((i 0).val / 32) + (i 1).val / 128 := ⟨⟨_, by omega⟩, rfl⟩
  obtain ⟨-, -, -, -, -, -, -, -, -, e0, e1⟩ := block_index t
  refine ⟨t, flush0_5 t, ?_⟩
  rw [mem_block]
  intro a
  match a with
  | ⟨0, _⟩ =>
    show win0_5.index t (0 : Fin 2) * 32 ≤ (i 0).val ∧ (i 0).val < win0_5.index t (0 : Fin 2) * 32 + 32
    rw [e0]; omega
  | ⟨1, _⟩ =>
    show win0_5.index t (1 : Fin 2) * 128 ≤ (i 1).val ∧ (i 1).val < win0_5.index t (1 : Fin 2) * 128 + 128
    rw [e1]; omega

/-- THE SCORE ARRAY AFTER THE 32 POINTS: at every row b and step t, the sum over the units u of
    tanh (pq (b, u) + (∑ₕ x (b, t, h) · w (h, u) + b2 u)) · vv u, of the arrays as the region finds them. -/
theorem final (V : (c : Dev nD) → (b : Ref sig .tc) → Buf (Elt Ideal) ((c : Thread nD τ).loc b)) (c : Dev nD) :
    (Gen.dat0 (F := Ideal) V c).arrAt 5 cfg0.N
      = Cert.Attn.rawScore (V c main_arg2) (V c main_v5) (V c main_arg6) (V c main_v4) (V c main_v6) :=
  (dat0 (F := Ideal) V c).arrAt_eq_of_cover 5
    (Cert.Attn.rawScore (V c main_arg2) (V c main_v5) (V c main_arg6) (V c main_v4) (V c main_v6))
    (fun t _ => flushed_eq V c t) covered

end Cert.KernelIdeal.ScoreRegion

end
-- ==== Proof.ContextRegion.lean ====
/-
  The second region of the program computes the attention context: for every batch row `b` and feature `h`,
  the sum over the 2048 time steps `s` of the weight `a (b, s)` times the value `x (b, s, h)`.

  The grid has 32 points in two rows of sixteen. Point `16 i + j` sees rows `32 i … 32 i + 31` of the batch axis and
  time steps `128 j … 128 j + 127`. Its output block (32 rows, all 512 features) stays in place along a row of the
  grid: at `j = 0` the body first clears it, and at every `j` it adds to it, entry by entry, the tile's share
  `∑ k < 128, a (32 i + p, 128 j + k) · x (32 i + p, 128 j + k, h)`. The block is written back to the result array
  only after the sixteenth tile.

  So after point `16 i + j` the block holds `0 + P₀ + … + Pⱼ` of the tile shares (an induction on the point, the
  chain starting afresh at each multiple of sixteen), after the sixteenth tile that is the sum over all time steps
  taken tile by tile, which is the plain sum, and the two written-back blocks (rows 0–31 and 32–63) cover the result
  array. Floats are read as extended reals, where addition is commutative and associative and the zero word is `0`.

  Contents: the two control cases of the body as values (`out_A`, `out_B`); three layout readings at an index
  (`shapeCast_ab_ab1_apply`, `broadcastTo_ab1_abn_apply`, `sum_axis1`) and the body's arithmetic at an index
  (`pay2_apply`); the window blocks read off their arrays (`idx_facts`, `xblk_apply`, `ablk_apply`); one point's
  effect on an entry (`point_A`, `point_B`); the tile shares and the running sum (`tile`, `tileN`, `sum_tiles`,
  `tile_read`, `outsAt_eq`); what is written back and that it covers the array (`flushed_eq`, `covered`); `final`.
-/
import proofs.«142122_j13889924235514_1_alg».proof.Proof.Gen.KernelIdeal.Frame
import proofs.«142122_j13889924235514_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.ContextRegion

open Cert.KernelIdeal Cert.KernelIdeal.Gen Idealize.ShloMosaic.ValueIdx

/-! ## The body's two control cases, as values (any float instance) -/

section AnyF
variable {F : FTy → Type} [FloatOps F]

/-- The all-zero offsets of a rank-2 access, however spelt. -/
theorem hz2 : (![0, 0] : Fin 2 → Nat) = fun _ => 0 := funext fun a => by fin_cases a <;> rfl
/-- The all-zero offsets of a rank-3 access, however spelt. -/
theorem hz3 : (![0, 0, 0] : Fin 3 → Nat) = fun _ => 0 := funext fun a => by fin_cases a <;> rfl

/-- Away from the first tile of a grid row the body leaves, in the output block holding `xo`, its one store's
    payload: `xo` plus the tile's share computed from the value block `x0` and the weight block `x1`. Every load
    reads a whole buffer. -/
theorem out_B (c : Dev nD) (i : grid1.Coords) (a2 : Memref sig .tc .vmem S32x128x512 .f32) (h2 : a2.IsWhole)
    (a3 : Memref sig .tc .vmem S32x128 .f32) (h3 : a3.IsWhole) (a4 : Memref sig .tc .vmem S32x512 .f32) (h4 : a4.IsWhole)
    (hc : ¬cond1_0 i) (x0 : Vec F S32x128x512 .f32) (x1 : Vec F S32x128 .f32) (xo : Vec F S32x512 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  rw [View.canon_unit_zero hz2]
  simp only [View.readAt_eq_ld, h2.read_unread, h3.read_unread, h4.read_unread, View.ld_unit_zero (S := S32x128x512) hz3,
    View.ld_unit_zero (S := S32x128) hz2, View.ld_unit_zero (S := S32x512) hz2]

/-- At the first tile of a grid row the body stores the zero block, reads it back, and leaves the zero block plus the
    tile's share: the second store covers the first, and the load between them reads what the first store wrote. -/
theorem out_A (c : Dev nD) (i : grid1.Coords) (a2 : Memref sig .tc .vmem S32x128x512 .f32) (h2 : a2.IsWhole)
    (a3 : Memref sig .tc .vmem S32x128 .f32) (h3 : a3.IsWhole) (a4 : Memref sig .tc .vmem S32x512 .f32) (h4 : a4.IsWhole)
    (hc : cond1_0 i) (x0 : Vec F S32x128x512 .f32) (x1 : Vec F S32x128 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S32x512) hz2, View.readCov_unit_zero (S := S32x512) _ hz2]
  simp only [View.readAt_eq_ld, h2.read_unread, h3.read_unread, View.ld_unit_zero (S := S32x128x512) hz3,
    View.ld_unit_zero (S := S32x128) hz2]

end AnyF

/-! ## Layout operations read at an index -/

section Layout
variable {α : Type}

/-- An `[a, b]` array viewed as `[a, b, 1]` reads, at `(i, j, u)`, the operand at `(i, j)`: the two indices have the
    same row-major position, the unit coordinate being `0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array repeated along its last axis to `[a, b, n]` reads, at `(i, j, e)`, the operand at
    `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (e : Fin n) :
    broadcastTo ⟨3, ![a, b, n]⟩ v h (ix3 i j e) = v (ix3 i j (0 : Fin 1)) := by
  refine broadcastTo_apply v h (ix3 i j e) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-- A sum of a `[32, 128, 512]` block along its middle axis, from the zero word, is at `(p, h)` the sum over `k` of
    the block at `(p, k, h)`: the source indices lying over `(p, h)` are `(p, h)` with `k` inserted in the middle. -/
theorem sum_axis1 (src : FVec Ideal S32x128x512 .f32) (hr : S32x128x512.Reduces [1] S32x512) (hφ : FKind.Formats .f32)
    (hacc : (0x00000000#32 : BitVec 32) = FKind.add.neutral .f32 hφ) (p : Fin 32) (h : Fin 512) :
    multiReduction .add [1] S32x512 src 0x00000000#32 hr hφ hacc (ix2 p h) = ∑ k : Fin 128, src (ix3 p k h) := by
  refine (Ideal.multiReduction_add_single src 0x00000000#32 hr hφ hacc (ix2 p h)).trans ?_
  show ∑ k : Fin 128, src (hr.lift (ix2 p h) k) = _
  refine Finset.sum_congr rfl fun k _ => congrArg src ?_
  funext c
  refine Fin.ext ?_
  match c with
  | ⟨0, _⟩ => rfl
  | ⟨1, _⟩ => rfl
  | ⟨2, _⟩ => rfl

/-- THE BODY'S ARITHMETIC AT AN ENTRY: what it stores at `(p, h)` is what the output block held there plus
    `∑ k, a (p, k) · x (p, k, h)` — the weight block laid along the feature axis, multiplied into the value block, and
    summed along the tile's 128 time steps. -/
theorem pay2_apply (x : Vec Ideal S32x128x512 .f32) (a : Vec Ideal S32x128 .f32) (acc : Vec Ideal S32x512 .f32)
    (p : Fin 32) (h : Fin 512) :
    k1_pay2 (F := Ideal) x a acc (ix2 p h) = acc (ix2 p h) + ∑ k : Fin 128, a (ix2 p k) * x (ix3 p k h) := by
  unfold k1_pay2
  dsimp only
  refine (addf_apply _ _ _).trans ?_
  refine congrArg₂ (· + ·) (congrFun (shapeCast_self acc _) (ix2 p h)) ?_
  refine (sum_axis1 _ _ _ _ p h).trans ?_
  refine Finset.sum_congr rfl fun k _ => ?_
  refine (mulf_apply _ _ _).trans ?_
  refine congrArg (· * x (ix3 p k h)) ?_
  refine (broadcastTo_ab1_abn_apply _ _ p k h).trans ?_
  refine (shapeCast_ab_ab1_apply _ _ p k 0).trans ?_
  exact congrFun (shapeCast_self a _) (ix2 p k)

/-! ## The windows' blocks, read off their arrays -/

/-- Where the three windows' blocks sit at point `t`: the value block at block index `(t / 16, t % 16, 0)`, the
    weight block at `(t / 16, t % 16)`, the output block at `(t / 16, 0)` — decided over the 32 points. -/
theorem idx_facts : ∀ t : Fin cfg1.N,
    win1_0.index t (0 : Fin 3) = t.val / 16 ∧ win1_0.index t (1 : Fin 3) = t.val % 16 ∧ win1_0.index t (2 : Fin 3) = 0
    ∧ win1_1.index t (0 : Fin 2) = t.val / 16 ∧ win1_1.index t (1 : Fin 2) = t.val % 16
    ∧ win1_2.index t (0 : Fin 2) = t.val / 16 ∧ win1_2.index t (1 : Fin 2) = 0 :=
  (by decide +kernel : ∀ t : Fin grid1.N, _)

section Region
variable (V : (c : Dev nD) → (b : Ref sig .tc) → Buf (Elt Ideal) ((c : Thread nD τ).loc b))

/-- The value block at point `t` reads, at `(p, k, h)`, the value array at row `32 (t / 16) + p`, time step
    `128 (t % 16) + k`, feature `h`: block index times block size plus the coordinate inside the block. -/
theorem xblk_apply (c : Dev nD) (t : Fin cfg1.N) (p : Fin 32) (k : Fin 128) (h : Fin 512) (b : Fin 64) (s : Fin 2048)
    (hb : b.val = 32 * (t.val / 16) + p.val) (hs : s.val = 128 * (t.val % 16) + k.val) :
    (iblk1 V c 0 t : Vec Ideal S32x128x512 .f32) (ix3 p k h) = V c main_arg2 (ix3 b s h) := by
  obtain ⟨e0, e1, e2, -⟩ := idx_facts t
  unfold iblk1
  rw [View.read_apply]
  show V c main_arg2 _ = V c main_arg2 _
  refine congrArg (V c main_arg2) ?_
  funext a
  apply Fin.ext
  match a with
  | ⟨0, _⟩ => show win1_0.index t (0 : Fin 3) * 32 + 1 * p.val = b.val; rw [e0, hb]; omega
  | ⟨1, _⟩ => show win1_0.index t (1 : Fin 3) * 128 + 1 * k.val = s.val; rw [e1, hs]; omega
  | ⟨2, _⟩ => show win1_0.index t (2 : Fin 3) * 512 + 1 * h.val = h.val; rw [e2]; omega

/-- The weight block at point `t` reads, at `(p, k)`, the weight array at row `32 (t / 16) + p`, time step
    `128 (t % 16) + k`. -/
theorem ablk_apply (c : Dev nD) (t : Fin cfg1.N) (p : Fin 32) (k : Fin 128) (b : Fin 64) (s : Fin 2048)
    (hb : b.val = 32 * (t.val / 16) + p.val) (hs : s.val = 128 * (t.val % 16) + k.val) :
    (iblk1 V c 1 t : Vec Ideal S32x128 .f32) (ix2 p k) = V c main_v23 (ix2 b s) := by
  obtain ⟨-, -, -, e0, e1, -⟩ := idx_facts t
  unfold iblk1
  rw [View.read_apply]
  show V c main_v23 _ = V c main_v23 _
  refine congrArg (V c main_v23) ?_
  funext a
  apply Fin.ext
  match a with
  | ⟨0, _⟩ => show win1_1.index t (0 : Fin 2) * 32 + 1 * p.val = b.val; rw [e0, hb]; omega
  | ⟨1, _⟩ => show win1_1.index t (1 : Fin 2) * 128 + 1 * k.val = s.val; rw [e1, hs]; omega

/-- The value block and the weight block the body reads at point `t`. -/
abbrev xb (c : Dev nD) (t : Fin cfg1.N) : Vec Ideal S32x128x512 .f32 := iblk1 V c 0 t
abbrev ab (c : Dev nD) (t : Fin cfg1.N) : Vec Ideal S32x128 .f32 := iblk1 V c 1 t

/-! ## One point's effect on an entry of the output block -/

/-- At the first tile of a grid row the entry `(p, h)` of the output block becomes `0` plus the tile's share. -/
theorem point_A (c : Dev nD) (t : Fin cfg1.N) (h0 : t.val % 16 = 0) (p : Fin 32) (h : Fin 512) :
    outsAt1 (F := Ideal) V c t.val t.isLt (ix2 p h)
      = 0 + ∑ k : Fin 128, ab V c t (ix2 p k) * xb V c t (ix3 p k h) := by
  rw [outsAt1_A V c t h0,
    out_A c (grid1.coords t) (ms1_0 t) (hs1_0 t) (ms1_1 t) (hs1_1 t) (ms1_2 t) (hs1_2 t) ((hcond1_0 t).mpr h0) (iblk1 V c 0 t) (iblk1 V c 1 t)]
  refine (pay2_apply (iblk1 V c 0 t) (iblk1 V c 1 t) (k1_pay1 (F := Ideal)) p h).trans ?_
  refine congrArg (· + _) ?_
  show Ideal.ofBits .f32 0x00000000#32 = 0
  exact Ideal.ofBits_zero_f32

/-- At every other tile the entry `(p, h)` becomes what the point before left there plus the tile's share. -/
theorem point_B (c : Dev nD) (t : Fin cfg1.N) (h0 : ¬t.val % 16 = 0) (p : Fin 32) (h : Fin 512) :
    outsAt1 (F := Ideal) V c t.val t.isLt (ix2 p h)
      = outsAt1 (F := Ideal) V c (t.val - 1) (Nat.lt_of_le_of_lt (Nat.sub_le _ _) t.isLt) (ix2 p h)
        + ∑ k : Fin 128, ab V c t (ix2 p k) * xb V c t (ix3 p k h) := by
  rw [outsAt1_B V c t h0,
    out_B c (grid1.coords t) (ms1_0 t) (hs1_0 t) (ms1_1 t) (hs1_1 t) (ms1_2 t) (hs1_2 t) (fun hh => h0 ((hcond1_0 t).mp hh)) (iblk1 V c 0 t) (iblk1 V c 1 t)
      (outsAt1 V c (t.val - 1) (Nat.lt_of_le_of_lt (Nat.sub_le _ _) t.isLt))]
  exact pay2_apply (iblk1 V c 0 t) (iblk1 V c 1 t) (outsAt1 V c (t.val - 1) (Nat.lt_of_le_of_lt (Nat.sub_le _ _) t.isLt)) p h

end Region

/-! ## The tiles' shares and their running sum -/

section Sum
variable (x : FVec Ideal ⟨3, ![64, 2048, 512]⟩ .f32) (a : FVec Ideal ⟨2, ![64, 2048]⟩ .f32)

/-- Tile `j`'s share of the weighted sum at row `b` and feature `h`: its 128 time steps. -/
def tile (b : Fin 64) (h : Fin 512) (j : Fin 16) : EReal :=
  ∑ k : Fin 128, a (ix2 b (Cert.Attn.tstep j k)) * x (ix3 b (Cert.Attn.tstep j k) h)

/-- The same with the tile numbered by a natural number: zero past the sixteenth. -/
def tileN (b : Fin 64) (h : Fin 512) (j : ℕ) : EReal := if hj : j < 16 then tile x a b h ⟨j, hj⟩ else 0

/-- Below sixteen the two agree. -/
theorem tileN_eq (b : Fin 64) (h : Fin 512) (m : ℕ) (j : Fin 16) (hm : m = j.val) :
    tileN x a b h m = tile x a b h j := by
  subst hm; exact dif_pos j.isLt

/-- All sixteen tiles make the whole weighted sum: the tiles partition the time axis. -/
theorem sum_tiles (b : Fin 64) (h : Fin 512) :
    ∑ j ∈ Finset.range 16, tileN x a b h j = Cert.Attn.contextAt x a b h := by
  rw [← Fin.sum_univ_eq_sum_range (fun j => tileN x a b h j) 16]
  unfold Cert.Attn.contextAt
  rw [← Cert.Attn.tileSum_eq (fun t => a (ix2 b t) * x (ix3 b t h))]
  unfold Cert.Attn.tileSum
  refine Finset.sum_congr rfl fun j _ => ?_
  exact tileN_eq x a b h j.val j rfl

end Sum

section Region2
variable (V : (c : Dev nD) → (b : Ref sig .tc) → Buf (Elt Ideal) ((c : Thread nD τ).loc b))

/-- What point `t` adds at `(p, h)` is tile `t % 16`'s share at row `32 (t / 16) + p`. -/
theorem tile_read (c : Dev nD) (t : Fin cfg1.N) (p : Fin 32) (h : Fin 512) (b : Fin 64) (j : Fin 16)
    (hb : b.val = 32 * (t.val / 16) + p.val) (hj : j.val = t.val % 16) :
    ∑ k : Fin 128, ab V c t (ix2 p k) * xb V c t (ix3 p k h) = tile (V c main_arg2) (V c main_v23) b h j := by
  unfold tile
  refine Finset.sum_congr rfl fun k _ => ?_
  have hs : (Cert.Attn.tstep j k).val = 128 * (t.val % 16) + k.val := by
    show 128 * j.val + k.val = _
    rw [hj]
  exact congrArg₂ (· * ·) (ablk_apply V c t p k b _ hb hs) (xblk_apply V c t p k h b _ hb hs)

/-- THE RUNNING SUM. After point `n` the output block holds, at `(p, h)`, the shares of tiles `0 … n % 16` at row
    `32 (n / 16) + p` — by induction on the point: a multiple of sixteen starts the sum afresh with tile 0, every
    other point adds its tile to what the point before left (the same grid row, one tile earlier). -/
theorem outsAt_eq (c : Dev nD) : ∀ (n : ℕ) (hn : n < cfg1.N) (p : Fin 32) (h : Fin 512) (b : Fin 64),
    b.val = 32 * (n / 16) + p.val →
    outsAt1 (F := Ideal) V c n hn (ix2 p h) = ∑ j ∈ Finset.range (n % 16 + 1), tileN (V c main_arg2) (V c main_v23) b h j
  | 0, hn, p, h, b, hb => by
    refine (point_A V c ⟨0, hn⟩ rfl p h).trans ?_
    rw [tile_read V c ⟨0, hn⟩ p h b ⟨0, by omega⟩ hb rfl, zero_add, Finset.sum_range_one]
    exact (tileN_eq _ _ b h 0 ⟨0, by omega⟩ rfl).symm
  | n + 1, hn, p, h, b, hb => by
    have hN : n + 1 < 32 := lt_of_lt_of_eq hn (show cfg1.N = 32 from N_1)
    by_cases h0 : (n + 1) % 16 = 0
    · refine (point_A V c ⟨n + 1, hn⟩ h0 p h).trans ?_
      rw [tile_read V c ⟨n + 1, hn⟩ p h b ⟨0, by omega⟩ hb (by show 0 = (n + 1) % 16; omega), zero_add, h0,
        Finset.sum_range_one]
      exact (tileN_eq _ _ b h 0 ⟨0, by omega⟩ rfl).symm
    · refine (point_B V c ⟨n + 1, hn⟩ h0 p h).trans ?_
      have ih := outsAt_eq c n (Nat.lt_of_succ_lt hn) p h b (by rw [hb]; omega)
      show outsAt1 (F := Ideal) V c n _ (ix2 p h) + _ = _
      rw [ih, tile_read V c ⟨n + 1, hn⟩ p h b ⟨(n + 1) % 16, by omega⟩ hb rfl,
        ← tileN_eq (V c main_arg2) (V c main_v23) b h ((n + 1) % 16) ⟨(n + 1) % 16, by omega⟩ rfl]
      have e : (n + 1) % 16 = n % 16 + 1 := by omega
      rw [e, Finset.sum_range_succ _ (n % 16 + 1)]

end Region2

/-! ## What is written back, and the result array -/

section Final
variable (V : (c : Dev nD) → (b : Ref sig .tc) → Buf (Elt Ideal) ((c : Thread nD τ).loc b))

/-- A point that writes the output block back is the sixteenth tile of its grid row, so the block then holds all
    sixteen shares: it is the block of the context array at rows `32 (t / 16) … 32 (t / 16) + 31`. -/
theorem flushed_eq (c : Dev nD) (t : Fin cfg1.N) (hf : (cfg1.win 2).flush t = true) :
    (dat1 (F := Ideal) V c).flushed 2 t
      = ((cfg1.win 2).blk t).view.read (Elt Ideal) (Cert.Attn.context (V c main_arg2) (V c main_v23)) := by
  have hN : t.val < 32 := lt_of_lt_of_eq t.isLt (show cfg1.N = 32 from N_1)
  have h15 : t.val % 16 = 15 := (flush1_2 t).mp hf
  obtain ⟨-, -, -, -, -, e0, e1⟩ := idx_facts t
  have key : ∀ y : S32x512.Idx, outsAt1 (F := Ideal) V c t.val t.isLt y
      = Cert.Attn.context (V c main_arg2) (V c main_v23) (((cfg1.win 2).blk t).view.emb y) := by
    intro y
    obtain ⟨p, h, rfl⟩ : ∃ (p : Fin 32) (h : Fin 512), y = ix2 p h := ⟨y 0, y 1, eq_ix2 y⟩
    have hp := p.isLt
    rw [outsAt_eq V c t.val t.isLt p h ⟨32 * (t.val / 16) + p.val, by omega⟩ rfl, h15, sum_tiles]
    unfold Cert.Attn.context
    show Cert.Attn.contextAt _ _ _ _ = Cert.Attn.contextAt _ _ ((((cfg1.win 2).blk t).view.emb (ix2 p h)) 0)
      ((((cfg1.win 2).blk t).view.emb (ix2 p h)) 1)
    congr 1
    · apply Fin.ext
      show 32 * (t.val / 16) + p.val = win1_2.index t (0 : Fin 2) * 32 + 1 * p.val
      rw [e0]; omega
    · apply Fin.ext
      show h.val = win1_2.index t (1 : Fin 2) * 512 + 1 * h.val
      rw [e1]; omega
  show (cfg1.win 2).cut (grid1.coords t) ((dat1 V c).after 2 t) = _
  rw [after1_2]
  funext y
  exact key y

/-- Every entry `(b, h)` of the result array lies in a block that is written back: the one of point
    `16 (b / 32) + 15`, which holds rows `32 (b / 32) … 32 (b / 32) + 31` and every feature. -/
theorem covered (i : S64x512.Idx) :
    ∃ t : Fin cfg1.N, (cfg1.win 2).flush t = true ∧ i ∈ ((cfg1.win 2).blk t).view.set := by
  have hi0 : (i 0).val < 64 := (i 0).isLt
  have hi1 : (i 1).val < 512 := (i 1).isLt
  have hlt : 16 * ((i 0).val / 32) + 15 < cfg1.N := by rw [show cfg1.N = 32 from N_1]; omega
  obtain ⟨-, -, -, -, -, e0, e1⟩ := idx_facts ⟨16 * ((i 0).val / 32) + 15, hlt⟩
  have e0' : win1_2.index ⟨16 * ((i 0).val / 32) + 15, hlt⟩ (0 : Fin 2) = (16 * ((i 0).val / 32) + 15) / 16 := e0
  refine ⟨⟨16 * ((i 0).val / 32) + 15, hlt⟩, (flush1_2 _).mpr (by show (16 * ((i 0).val / 32) + 15) % 16 = 15; omega), ?_⟩
  show i ∈ ((View.whole main_v24).slice (win1_2.rect ⟨16 * ((i 0).val / 32) + 15, hlt⟩)).set
  rw [View.set_slice_whole, Rect.mem_set_unit]
  intro a
  match a with
  | ⟨0, _⟩ =>
    show win1_2.index ⟨16 * ((i 0).val / 32) + 15, hlt⟩ (0 : Fin 2) * 32 ≤ (i 0).val
      ∧ (i 0).val < win1_2.index ⟨16 * ((i 0).val / 32) + 15, hlt⟩ (0 : Fin 2) * 32 + 32
    rw [e0']; omega
  | ⟨1, _⟩ =>
    show win1_2.index ⟨16 * ((i 0).val / 32) + 15, hlt⟩ (1 : Fin 2) * 512 ≤ (i 1).val
      ∧ (i 1).val < win1_2.index ⟨16 * ((i 0).val / 32) + 15, hlt⟩ (1 : Fin 2) * 512 + 512
    rw [e1]; omega

end Final

/-- THE REGION'S RESULT: its output array ends holding the attention context of the value array and the weight array
    as the region finds them — at `(b, h)` the sum over the 2048 time steps `s` of `a (b, s) · x (b, s, h)`. -/
theorem final (V : (c : Dev nD) → (b : Ref sig .tc) → Buf (Elt Ideal) ((c : Thread nD τ).loc b)) (c : Dev nD) :
    (Gen.dat1 (F := Ideal) V c).arrAt 2 cfg1.N = Cert.Attn.context (V c main_arg2) (V c main_v23) :=
  (dat1 (F := Ideal) V c).arrAt_eq_of_cover 2 (Cert.Attn.context (V c main_arg2) (V c main_v23)) (flushed_eq V c)
    fun i => covered i

end Cert.KernelIdeal.ContextRegion

end
-- ==== Proof.KernelValue.lean ====
/-
  The idealized kernel's two results as functions of its arguments.

  The attention weights are the softmax lines applied to the biased score, and the score is what the score region
  writes: at (b, t) the contraction over the units of `tanh (pq (b, u) + (∑ₕ x (b, t, h) · w (h, u) + b₂ u))` with the
  scoring vector (`rawScore`), where `pq` is the projected query the first host lines leave, `w` the weight matrix with
  its format changed and the scoring vector the single column of `V`. The context is what the context region writes: the
  weighted sum over time of the value rows, the weights being those same attention weights with the unit axis dropped.
  Each region's value is read off its proof data at the contents the region is entered with; the host lines between
  them are read buffer by buffer; the run is the one that keeps its final memory.
-/
import proofs.«142122_j13889924235514_1_alg».proof.Proof.KernelRun
import proofs.«142122_j13889924235514_1_alg».proof.Proof.HostLines
import proofs.«142122_j13889924235514_1_alg».proof.Proof.ScoreRegion
import proofs.«142122_j13889924235514_1_alg».proof.Proof.ContextRegion

set_option maxRecDepth 16384

noncomputable section

namespace Cert.KernelIdeal.Value

open Cert.KernelIdeal Cert.KernelIdeal.Gen Cert.KernelIdeal.HostLines
open Idealize.ShloMosaic Idealize.ShloMosaic.TcCoe Idealize.SL.Sem

variable (m : (ℓ : Loc nD τ sig) → Buf (Elt Ideal) ℓ) (ρ : Dev nD → PrngReg)

/-- The score the first region writes, from the arguments. -/
def score (c : Dev nD) : FVec Ideal S64x2048 .f32 :=
  Cert.Attn.rawScore (m ((c : Thread nD τ).loc main_arg2))
    (truncf .bf16 (m ((c : Thread nD τ).loc main_arg5) : FVec Ideal S512x512 .f32) bitsLt_bf16_f32 : FVec Ideal S512x512 .bf16)
    (m ((c : Thread nD τ).loc main_arg6))
    (Cert.ReferenceIdeal.Read.val_main_v4 (F := Ideal) (m ((c : Thread nD τ).loc main_arg0)) (m ((c : Thread nD τ).loc main_arg1))
      (m ((c : Thread nD τ).loc main_arg3)) (m ((c : Thread nD τ).loc main_arg4)))
    (shapeCast S512 (m ((c : Thread nD τ).loc main_arg7) : FVec Ideal S512x1 .f32) shapeCasts_S512x1_S512 : FVec Ideal S512 .f32)

/-- The attention weights (the second result), from the arguments. -/
def attn (c : Dev nD) : Buf (Elt Ideal) ((c : Thread nD τ).loc main_v22) :=
  Cert.Attn.softmax softmaxFacts (biasedScore (score m c) (m ((c : Thread nD τ).loc main_arg8)))

/-- The context (the first result), from the arguments. -/
def ctx (c : Dev nD) : Buf (Elt Ideal) ((c : Thread nD τ).loc main_v24) :=
  Cert.Attn.context (m ((c : Thread nD τ).loc main_arg2)) (attnRows (attn m c))

/-- What the score region leaves in its result array. -/
theorem score_buf (c : Dev nD) : W2 m ρ c (Proc.devRef .tc main_v7) = score m c := by
  refine (W2_arr m ρ c 5).trans ?_
  rw [Cert.KernelIdeal.ScoreRegion.final (V1 m ρ) c]
  show Cert.Attn.rawScore (W1 m ρ c (Proc.devRef .tc main_arg2)) (W1 m ρ c (Proc.devRef .tc main_v5))
    (W1 m ρ c (Proc.devRef .tc main_arg6)) (W1 m ρ c (Proc.devRef .tc main_v4)) (W1 m ρ c (Proc.devRef .tc main_v6)) = _
  rw [entry_values, entry_weights, entry_bias2, entry_projq, entry_scoring]
  rfl

/-- The attention weights' buffer at the end of the run. -/
theorem attn_buf (c : Dev nD) : W4 m ρ c (Proc.devRef .tc main_v22) = attn m c := by
  rw [W4_of_ne m ρ c main_v22 (by decide), mid_attn, score_buf, mid_biasv]
  rfl

/-- The context's buffer at the end of the run. -/
theorem ctx_buf (c : Dev nD) : W4 m ρ c (Proc.devRef .tc main_v24) = ctx m c := by
  refine (W4_arr m ρ c 2).trans ?_
  rw [Cert.KernelIdeal.ContextRegion.final (V3 m ρ) c]
  show Cert.Attn.context (W3 m ρ c (Proc.devRef .tc main_arg2)) (W3 m ρ c (Proc.devRef .tc main_v23)) = _
  rw [mid_values, mid_attnRows, score_buf, mid_biasv]
  rfl

/-- The run, read: the two results at these functions of the arguments, the arguments unchanged. -/
theorem run : θ_run defs (onTc (τ := τ) (main (F := Ideal))) ⟨m, fun _ => 0, ρ⟩ (fun r => ∀ c : Dev nD,
      r.2.mem ((c.tc : Thread nD τ).loc main_v24) = ctx m c
      ∧ r.2.mem ((c.tc : Thread nD τ).loc main_v22) = attn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_v24 (by decide))).trans (ctx_buf m ρ c),
      (h c _ (mem_uc main_v22 (by decide))).trans (attn_buf m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩)
    (Cert.KernelIdeal.RunNamed.run_named (F := Ideal) m ρ)

end Cert.KernelIdeal.Value

end
-- ==== Proof.LibTrailingUnit.lean ====
/-
  Shape casts that drop a trailing unit axis, read at an index.

  A row-major array of shape [a, b, 1] and the array of shape [a, b] it is cast to hold the same entries in the same
  order: entry (i, j) of the cast is entry (i, j, 0) of the operand. Likewise [a, 1] cast to [a] reads (i, 0), and the
  one entry of a [1] array cast to a scalar is its entry 0. Each is the library's `shapeCast_apply` with the two row-major
  positions written out.
-/
import Idealize.ShloMosaic.Lib.Pipeline.Value
import Idealize.ShloMosaic.Lib.ValueIdx

namespace Cert.Lib.TrailingUnit

open Idealize.ShloMosaic Idealize.ShloMosaic.ValueIdx

variable {α : Type}

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A `[1]` array cast to a scalar reads its one entry. -/
theorem shapeCast_1_scalar_apply (x : (⟨1, ![1]⟩ : Shape).Idx → α)
    (h : (⟨1, ![1]⟩ : Shape).ShapeCasts ⟨0, ![]⟩) (j : (⟨0, ![]⟩ : Shape).Idx) :
    shapeCast ⟨0, ![]⟩ x h j = x (ix1 (0 : Fin 1)) := by
  unfold shapeCast
  refine congrArg x (funext fun a => ?_)
  match a with
  | ⟨0, _⟩ => exact Fin.ext (Nat.lt_one_iff.mp (Fin.isLt _))

end Cert.Lib.TrailingUnit
-- ==== Proof.Bridge.lean ====
/-
  The kernel's two results are the reference's, as functions of the same arguments.

  Scores. The kernel's biased score at (b, t, 0) is its region's `rawScore` at (b, t) plus the scalar bias; the
  reference's score there is the same `rawScoreAt` plus the same bias (`score_eq`), once the kernel's weight matrix
  (the argument with its format changed: the identity on extended reals) and scoring vector (the one column of `V`, the
  unit axis dropped) are read entry by entry. Equal scores give equal attention weights, because both programs apply
  the one softmax function to them.

  Contexts. The kernel's context at (b, h) is the sum over time of weight × value; the reference's is `0 +` that sum,
  and 0 is the additive unit of the extended reals. The kernel reads its weights with the unit axis dropped, the
  reference through a broadcast along it: the same entries.

  No law used here needs the inputs to be finite: sums are only regrouped, and 0 is only dropped.
-/
import proofs.«142122_j13889924235514_1_alg».proof.Proof.KernelValue
import proofs.«142122_j13889924235514_1_alg».proof.Proof.RefIndex
import proofs.«142122_j13889924235514_1_alg».proof.Proof.LibTrailingUnit

set_option maxRecDepth 16384

noncomputable section

namespace Cert.Proof.Bridge

open Cert.KernelIdeal Cert.KernelIdeal.Gen Cert.KernelIdeal.HostLines Cert.KernelIdeal.Value
open Idealize.ShloMosaic Idealize.ShloMosaic.TcCoe Idealize.SL.Sem Idealize.ShloMosaic.ValueIdx

variable (m : (ℓ : Loc nD τ sig) → Buf (Elt Ideal) ℓ)

/-- The biased score column at (b, t, 0): the score at (b, t) plus the scalar bias. -/
theorem biasedScore_apply (r : FVec Ideal S64x2048 .f32) (b8 : FVec Ideal S1 .f32) (b : Fin 64) (t : Fin 2048) :
    biasedScore r b8 (ix3 b t (0 : Fin 1)) = r (ix2 b t) + b8 (ix1 (0 : Fin 1)) := by
  unfold biasedScore
  refine (broadcastInDim_apply _ bcast_S64x2048_S64x2048x1_0_1 _ (ix3 b t (0 : Fin 1)) (ix2 b t) (fun a => ?_)).trans ?_
  · match a with
    | ⟨0, _⟩ => show b.val = if (64 : Nat) = 1 then 0 else b.val; rw [if_neg (by decide)]
    | ⟨1, _⟩ => show t.val = if (2048 : Nat) = 1 then 0 else t.val; rw [if_neg (by decide)]
  · show r (ix2 b t) + _ = _
    refine congrArg (r (ix2 b t) + ·) ?_
    refine (broadcastInDim_apply _ bcast_S_S64x2048 _ (ix2 b t) ix0 (fun a => a.elim0)).trans ?_
    exact Cert.Lib.TrailingUnit.shapeCast_1_scalar_apply _ _ _

/-- The kernel's attention weights are the reference's, of the same arguments. -/
theorem attn_eq_ref (c : Dev nD) :
    attn m c = Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [Cert.ReferenceIdeal.Stages.attn_eq]
  unfold attn
  refine congrArg (Cert.Attn.softmax _) (funext fun i => ?_)
  obtain ⟨b, t, z, rfl⟩ : ∃ (b : Fin 64) (t : Fin 2048) (z : Fin 1), i = ix3 b t z := ⟨i 0, i 1, i 2, eq_ix3 i⟩
  obtain rfl : z = 0 := Subsingleton.elim _ _
  refine (biasedScore_apply _ _ b t).trans ?_
  refine Eq.trans ?_ (Cert.ReferenceIdeal.Stages.score_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (truncf .bf16 (m ((c : Thread nD τ).loc main_arg5) : FVec Ideal S512x512 .f32) bitsLt_bf16_f32 : FVec Ideal S512x512 .bf16)
    (shapeCast S512 (m ((c : Thread nD τ).loc main_arg7) : FVec Ideal S512x1 .f32) shapeCasts_S512x1_S512 : FVec Ideal S512 .f32)
    (fun _ _ => rfl) (fun u => Cert.Lib.TrailingUnit.shapeCast_a1_a_apply _ _ u) b t).symm
  rfl

/-- The kernel's context is the reference's, of the same arguments. -/
theorem ctx_eq_ref (c : Dev nD) :
    ctx m c = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext j
  obtain ⟨b, h, rfl⟩ : ∃ (b : Fin 64) (h : Fin 512), j = ix2 b h := ⟨j 0, j 1, eq_ix2 j⟩
  refine Eq.trans ?_ (Cert.ReferenceIdeal.Stages.context_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    (attnRows (attn m c)) (fun b t => ?_) b h).symm
  · rfl
  · rw [← attn_eq_ref m c]
    exact Cert.Lib.TrailingUnit.shapeCast_ab1_ab_apply _ _ b t

end Cert.Proof.Bridge

end
-- ==== Proof.lean ====
/-
  Additive attention: a Pallas kernel pair against its jnp reference, equal on the extended reals.

  Both programs project the query (`concat (query, cellstate) · W₁ + b₁`) with the same four host operations, score
  every time step by `tanh (projected query + values · W₂ + b₂) · V + bv`, take the softmax of the scores along time,
  and return the attention weights together with the weighted sum of the value rows.

  The kernel program computes the score in a first region over a 2 × 16 grid of (32 batch rows) × (128 time steps)
  blocks — a matrix product into a zero accumulator, the biases, `tanh`, and a lane sum against the scoring vector —
  and the weighted sum in a second region over the same grid, which keeps one (32 × 512) output block per row of the
  grid, stores zero into it at the first tile of the time axis, and adds each tile's partial sum. Read exactly, the
  format changes are identities, the matrix product and the lane sums are plain finite sums, and the sixteen partial
  sums regroup into the one sum over time; the reference's own sums carry a leading `0 +`. So the two programs' results
  are the same functions of the arguments: `Bridge.attn_eq_ref`, `Bridge.ctx_eq_ref`.

  The frames of the two kernel programs are the generated ones; the reference's frame is its generated run with the
  results dropped; the idealization rewrote nothing, so `preserves` is trivial.
-/
import proofs.«142122_j13889924235514_1_alg».proof.Defs
import proofs.«142122_j13889924235514_1_alg».proof.Proof.Gen.Kernel
import proofs.«142122_j13889924235514_1_alg».proof.Proof.Gen.Kernel.Skeleton
import proofs.«142122_j13889924235514_1_alg».proof.Proof.Gen.Kernel.Launch
import proofs.«142122_j13889924235514_1_alg».proof.Proof.Gen.Kernel.Points
import proofs.«142122_j13889924235514_1_alg».proof.Proof.Gen.Kernel.Frame
import proofs.«142122_j13889924235514_1_alg».proof.Proof.Gen.KernelIdeal
import proofs.«142122_j13889924235514_1_alg».proof.Proof.Gen.KernelIdeal.Skeleton
import proofs.«142122_j13889924235514_1_alg».proof.Proof.Gen.KernelIdeal.Launch
import proofs.«142122_j13889924235514_1_alg».proof.Proof.Gen.KernelIdeal.Points
import proofs.«142122_j13889924235514_1_alg».proof.Proof.Gen.KernelIdeal.Frame
import proofs.«142122_j13889924235514_1_alg».proof.Proof.Gen.ReferenceIdeal
import proofs.«142122_j13889924235514_1_alg».proof.Proof.Gen.ReferenceIdeal.Run
import proofs.«142122_j13889924235514_1_alg».proof.Proof.Gen.ReferenceIdeal.Read
import proofs.«142122_j13889924235514_1_alg».proof.Proof.Gen.Pre_finite_inputs
import proofs.«142122_j13889924235514_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its generated run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the same context and the same attention weights:
    the kernel's run names them as functions of its arguments, the reference's generated run names its own stages,
    and the two are equal functions of the same arguments. -/
theorem algebraic : Cert.algebraic_KernelIdeal_ReferenceIdeal := by
  intro m ρ m' ρ' _ hagree
  refine ⟨fun c => Cert.KernelIdeal.Value.ctx m c, fun c => Cert.KernelIdeal.Value.attn m c,
    Cert.KernelIdeal.Value.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8⟩ := hagree c
    rw [Cert.ReferenceIdeal.Read.val_main_v30_eq, h0, h1, h2, h3, h4, h5, h6, h7, h8]
    exact (Bridge.ctx_eq_ref m c).symm
  · obtain ⟨h0, h1, h2, h3, h4, h5, h6, h7, h8⟩ := hagree c
    rw [Cert.ReferenceIdeal.Read.val_main_v27_eq, h0, h1, h2, h3, h4, h5, h6, h7, h8]
    exact (Bridge.attn_eq_ref m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
